-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  main_v8
-- ==== Kernel.lean ====
abbrev S8x4096x256 : Shape := ⟨3, ![8, 4096, 256]⟩
abbrev S8x1x4096 : Shape := ⟨3, ![8, 1, 4096]⟩
abbrev S1x4096x256 : Shape := ⟨3, ![1, 4096, 256]⟩
abbrev S1x512x256 : Shape := ⟨3, ![1, 512, 256]⟩
abbrev S1x1x512 : Shape := ⟨3, ![1, 1, 512]⟩
abbrev S1x1x4096 : Shape := ⟨3, ![1, 1, 4096]⟩
abbrev S4096x256 : Shape := ⟨2, ![4096, 256]⟩
abbrev S4096x1 : Shape := ⟨2, ![4096, 1]⟩
abbrev S4096 : Shape := ⟨1, ![4096]⟩
abbrev S512x256 : Shape := ⟨2, ![512, 256]⟩
abbrev S4096x512 : Shape := ⟨2, ![4096, 512]⟩
abbrev S512 : Shape := ⟨1, ![512]⟩
abbrev S512x1 : Shape := ⟨2, ![512, 1]⟩
abbrev S1x512 : Shape := ⟨2, ![1, 512]⟩
abbrev S1x4096 : Shape := ⟨2, ![1, 4096]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x1x4096, .f32⟩
  | .hbm, ⟨3, _⟩ => ⟨S8x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S1x512x256, .f32⟩
  | .local _ .vmem, ⟨3, _⟩ => ⟨S1x512x256, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S4096x256, .bf16⟩
  | .local _ .vmem, ⟨9, _⟩ => ⟨S4096x1, .f32⟩
  | .local _ .vmem, ⟨10, _⟩ => ⟨S4096x1, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_18 : BitVec 32 := 0#32
  let v33 : BitVec 1 := Scalar.cmpi .ne v32 c0_i32_18
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  reduces_S4096x256_S4096 : S4096x256.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  transposes_S512x1_p1_0_S1x512 : S512x1.Transposes [1, 0] S1x512
  broadcasts_S4096x1_S4096x512 : S4096x1.Broadcasts S4096x512
  broadcasts_S1x512_S4096x512 : S1x512.Broadcasts S4096x512
  reduces_S4096x512_S512 : S4096x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reduces_S4096x512_S4096 : S4096x512.Reduces [1] S4096
  transposes_S4096x1_p1_0_S1x4096 : S4096x1.Transposes [1, 0] S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x1x4096_S_d0_1_2 : S8x1x4096.ReducesTo [0, 1, 2] S_
  h_S_ : 0 < S_.numel
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x4096x256.size a
  hwx0_1 : ∀ i : grid0.Coords, EltTy.bits .f32 = 32 ∨ (Rect.block (s := S8x4096x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S_, .f32⟩
  | .hbm, ⟨4, _⟩ => ⟨S8x4096, .f32⟩
  | .hbm, ⟨5, _⟩ => ⟨S8x4096x256, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S_, .f32⟩
  | .hbm, ⟨26, _⟩ => ⟨S_, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.BodyBits.Conds.lean ====
/-
  What the three case runs of the body share: the branch conditions decided over the grid, where the
  windows are idle, the memrefs the pipeline passes, and the class invariant spelled over the scratch buffers.
-/
import proofs.«162894_j44581760532793_2_alg».proof.Proof.Gen.Kernel.Frame
import proofs.«162894_j44581760532793_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions the body branches on, over the grid

The grid is eight families by eight tiles; the second coordinate `j` is the tile.  The body resets its
per-family scratch when `j = 0`, folds the running row minimum when `j > 0`, and hands the row minima
over when `j = 7`.  Point `t` of the grid has `j = t mod 8`. -/

/-- The tile is the first of its family (`j = 0`). -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The tile is a later one (`j > 0`). -/
abbrev condLater (i : grid0.Coords) : Prop := (Scalar.cmpi .ne (Scalar.extui (Scalar.cmpi .sgt (BitVec.ofNat 32 (i 1).val) 0#32)) 0#32) = 1#1
theorem hcondLater : ∀ t : Fin cfg0.N, condLater (grid0.coords t) ↔ t.val % 8 ≠ 0 :=
  (by decide +kernel : ∀ t : Fin grid0.N, condLater (grid0.coords t) ↔ t.val % 8 ≠ 0)

/-- The tile is the last of its family (`j = 7`). -/
abbrev condLast (i : grid0.Coords) : Prop := k0_cond4 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from a family's last tile the row-minimum window is idle and is not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The three scratch buffers: the first family's block in the narrow format, its squared norms, the running row minima. -/
abbrev scB : Memref sig .tc .vmem S4096x256 .bf16 := Memref.whole cc0_scratch0
abbrev scN : Memref sig .tc .vmem S4096x1 .f32 := Memref.whole cc0_scratch1
abbrev scM : Memref sig .tc .vmem S4096x1 .f32 := Memref.whole cc0_scratch2
/-- Views through which the contents of the outputs and of the scratch are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view
abbrev VSB : View sig .tc .vmem S4096x256 .bf16 := scB.view
abbrev VSN : View sig .tc .vmem S4096x1 .f32 := scN.view
abbrev VSM : View sig .tc .vmem S4096x1 .f32 := scM.view

/-- The class invariant with the three scratch buffers as memrefs owned at some contents. -/
theorem PhiA0_eq (c : Dev nD) :
    (Pipeline.ΦA spec0 c : sProp 𝕄)
      = iprop(iprop((∃ d, owns (c : Thread nD τ) scB fullShare d) ∗ (∃ d, owns (c : Thread nD τ) scN fullShare d) ∗ (∃ d, owns (c : Thread nD τ) scM fullShare d)) ∗ (∃ r, prngReg c r)) := by
  unfold Pipeline.ΦA; rw [scopedRest0_eq]; simp only [scB, scN, scM, owns_whole]; try rfl

end Cert.Kernel.Body

end
-- ==== Proof.BodyBits.RunFirst.lean ====
/-
  The body's run at the first tile of a family.
-/
import proofs.«162894_j44581760532793_2_alg».proof.Proof.BodyBits.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST TILE OF A FAMILY (`j = 0`).  The body reads the family's block `x0` and the tile `x1`, writes the
    block in the narrow format and its squared norms into the first two scratch buffers, computes the tile's
    distances from them, stores the column minima into the first output and the row minima into the third
    scratch.  The pieces each buffer ends with are the witnesses the run finds. -/
noncomputable def runFirst (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : condFirst i) (hc3 : ¬condLater i) (hc4 : ¬condLast i)
    (x0 : Vec F S1x4096x256 .f32) (x1 : Vec F S1x512x256 .f32) :
    Σ' (L2 : List (View.Piece (Elt F) S1x1x512 .f32)) (LB : List (View.Piece (Elt F) S4096x256 .bf16)) (LN : List (View.Piece (Elt F) S4096x1 .f32)), { LM : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg6.view.loc (c : Thread nD τ) ↦[arg6.view.set]{fullShare} arg6.view.writes (Elt F) f LB) ∗ (∃ f, arg7.view.loc (c : Thread nD τ) ↦[arg7.view.set]{fullShare} arg7.view.writes (Elt F) f LN) ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d6, %f6, -, H6⟩, ⟨%d7, %f7, -, H7⟩, ⟨%d8, %f8, -, H8⟩, Hk⟩
    obtain rfl := harg2.eq_unread hf0; obtain rfl := harg3.eq_unread hf1
    sl_exec (disch := first | exact hc1 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H6]; · iexists _; iexact H6
    isplitl [H7]; · iexists _; iexact H7
    iexists _; iexact H8

end Cert.Kernel.Body

end
-- ==== Proof.BodyBits.RunMiddle.lean ====
/-
  The body's run at a middle tile of a family.
-/
import proofs.«162894_j44581760532793_2_alg».proof.Proof.BodyBits.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE TILE (`0 < j < 7`).  The scratch buffers hold the family's block `xb`, its squared norms `xn` and the
    running row minima `xm`; the body reads them and the tile `x1`, stores the tile's column minima into the first
    output and folds the tile's row minima into the third scratch. -/
noncomputable def runMiddle (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : ¬condFirst i) (hc3 : condLater i) (hc4 : ¬condLast i)
    (x1 : Vec F S1x512x256 .f32) (xb : Vec F S4096x256 .bf16) (xn : Vec F S4096x1 .f32) (xm : Vec F S4096x1 .f32) :
    Σ' (L2 : List (View.Piece (Elt F) S1x1x512 .f32)), { LM : List (View.Piece (Elt F) S4096x1 .f32) //
      ∀ (E : Set ℕ) (K : PUnit → sProp 𝕄),
        iprop(owns (c : Thread nD τ) arg3 fullShare x1 ∗ (∃ d, owns (c : Thread nD τ) arg4 fullShare d)
            ∗ owns (c : Thread nD τ) arg6 fullShare xb ∗ owns (c : Thread nD τ) arg7 fullShare xn ∗ owns (c : Thread nD τ) arg8 fullShare xm
            ∗ (iprop(owns (c : Thread nD τ) arg3 fullShare x1 ∗ (∃ f, arg4.view.loc (c : Thread nD τ) ↦[arg4.view.set]{fullShare} arg4.view.writes (Elt F) f L2)
                ∗ owns (c : Thread nD τ) arg6 fullShare xb ∗ owns (c : Thread nD τ) arg7 fullShare xn ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, fun E K => ?run⟩
  case run =>
    simp only [cc0__chamfer_kernel_eq_skeleton]; unfold cc0__chamfer_kernel_skel
    unfold owns
    iintro ⟨⟨%f1, %hf1, H1⟩, ⟨%d2, %f2, -, H2⟩, ⟨%f6, %hf6, H6⟩, ⟨%f7, %hf7, H7⟩, ⟨%f8, %hf8, H8⟩, Hk⟩
    obtain rfl := harg3.eq_unread hf1; obtain rfl := harg6.eq_unread hf6; obtain rfl := harg7.eq_unread hf7; obtain rfl := harg8.eq_unread hf8
    sl_exec (disch := first | exact hc1 | exact hc3 | exact hc4)
    sl_step
    iapply Hk
    isplitl [H1]
    · iexists _; isplitr; · ipureintro; exact harg3.read_unread _
      iexact H1
    isplitl [H2]; · iexists _; iexact H2
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.BodyBits.RunLast.lean ====
/-
  The body's run at the last tile of a family.
-/
import proofs.«162894_j44581760532793_2_alg».proof.Proof.BodyBits.RunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST TILE OF A FAMILY (`j = 7`).  As a middle tile, and then the folded row minima are laid along a row
    and stored into the second output. -/
noncomputable def runLast (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : ¬condFirst i) (hc3 : condLater i) (hc4 : condLast i)
    (x1 : Vec F S1x512x256 .f32) (xb : Vec F S4096x256 .bf16) (xn : Vec F S4096x1 .f32) (xm : Vec F S4096x1 .f32) :
    Σ' (L2 : List (View.Piece (Elt F) S1x1x512 .f32)) (L3 : List (View.Piece (Elt F) S1x1x4096 .f32)), { LM : List (View.Piece (Elt F) S4096x1 .f32) //
      ∀ (E : Set ℕ) (K : PUnit → sProp 𝕄),
        iprop(owns (c : Thread nD τ) arg3 fullShare x1 ∗ (∃ d, owns (c : Thread nD τ) arg4 fullShare d) ∗ (∃ d, owns (c : Thread nD τ) arg5 fullShare d)
            ∗ owns (c : Thread nD τ) arg6 fullShare xb ∗ owns (c : Thread nD τ) arg7 fullShare xn ∗ owns (c : Thread nD τ) arg8 fullShare xm
            ∗ (iprop(owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xb ∗ owns (c : Thread nD τ) arg7 fullShare xn ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, fun E K => ?run⟩
  case run =>
    simp only [cc0__chamfer_kernel_eq_skeleton]; unfold cc0__chamfer_kernel_skel
    unfold owns
    iintro ⟨⟨%f1, %hf1, H1⟩, ⟨%d2, %f2, -, H2⟩, ⟨%d3, %f3, -, H3⟩, ⟨%f6, %hf6, H6⟩, ⟨%f7, %hf7, H7⟩, ⟨%f8, %hf8, H8⟩, Hk⟩
    obtain rfl := harg3.eq_unread hf1; obtain rfl := harg6.eq_unread hf6; obtain rfl := harg7.eq_unread hf7; obtain rfl := harg8.eq_unread hf8
    sl_exec (disch := first | exact hc1 | exact hc3 | exact hc4)
    sl_step
    iapply Hk
    isplitl [H1]
    · iexists _; isplitr; · ipureintro; exact harg3.read_unread _
      iexact H1
    isplitl [H2]; · iexists _; iexact H2
    isplitl [H3]; · iexists _; iexact H3
    isplitl [H6]
    · iexists _; isplitr; · ipureintro; exact harg6.read_unread _
      iexact H6
    isplitl [H7]
    · iexists _; isplitr; · ipureintro; exact harg7.read_unread _
      iexact H7
    iexists _; iexact H8

end Cert.Kernel.Body

end
-- ==== Proof.BodyBits.Held.lean ====
/-
  What the body leaves in its outputs and carries in its scratch, point by point, and the pipeline's proof
  data stated over it.
-/
import proofs.«162894_j44581760532793_2_alg».proof.Proof.BodyBits.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces its run found -/

section Cases
variable (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole)

/-- First tile: the pieces stored into the first output cover its block. -/
theorem coverFirst2 (hc1 : condFirst i) (hc3 : ¬condLater i) (hc4 : ¬condLast i) (x0 : Vec F S1x4096x256 .f32) (x1 : Vec F S1x512x256 .f32) (y : S1x1x512.Idx) :
    ∃ pc ∈ (runFirst c i arg2 harg2 arg3 harg3 arg4 harg4 arg5 harg5 arg6 harg6 arg7 harg7 arg8 harg8 hc1 hc3 hc4 x0 x1).1, y ∈ pc.1.set :=
  View.cover_of_tiledL (runFirst c i arg2 harg2 arg3 harg3 arg4 harg4 arg5 harg5 arg6 harg6 arg7 harg7 arg8 harg8 hc1 hc3 hc4 x0 x1).1 S1x1x512.size (by sl_kernel_rfl) y
theorem coverFirstB (hc1 : condFirst i) (hc3 : ¬condLater i) (hc4 : ¬condLast i) (x0 : Vec F S1x4096x256 .f32) (x1 : Vec F S1x512x256 .f32) (y : S4096x256.Idx) :
    ∃ pc ∈ (runFirst c i arg2 harg2 arg3 harg3 arg4 harg4 arg5 harg5 arg6 harg6 arg7 harg7 arg8 harg8 hc1 hc3 hc4 x0 x1).2.1, y ∈ pc.1.set :=
  View.cover_of_tiledL (runFirst c i arg2 harg2 arg3 harg3 arg4 harg4 arg5 harg5 arg6 harg6 arg7 harg7 arg8 harg8 hc1 hc3 hc4 x0 x1).2.1 S4096x256.size (by sl_kernel_rfl) y
theorem coverFirstN (hc1 : condFirst i) (hc3 : ¬condLater i) (hc4 : ¬condLast i) (x0 : Vec F S1x4096x256 .f32) (x1 : Vec F S1x512x256 .f32) (y : S4096x1.Idx) :
    ∃ pc ∈ (runFirst c i arg2 harg2 arg3 harg3 arg4 harg4 arg5 harg5 arg6 harg6 arg7 harg7 arg8 harg8 hc1 hc3 hc4 x0 x1).2.2.1, y ∈ pc.1.set :=
  View.cover_of_tiledL (runFirst c i arg2 harg2 arg3 harg3 arg4 harg4 arg5 harg5 arg6 harg6 arg7 harg7 arg8 harg8 hc1 hc3 hc4 x0 x1).2.2.1 S4096x1.size (by sl_kernel_rfl) y
theorem coverFirstM (hc1 : condFirst i) (hc3 : ¬condLater i) (hc4 : ¬condLast i) (x0 : Vec F S1x4096x256 .f32) (x1 : Vec F S1x512x256 .f32) (y : S4096x1.Idx) :
    ∃ pc ∈ (runFirst c i arg2 harg2 arg3 harg3 arg4 harg4 arg5 harg5 arg6 harg6 arg7 harg7 arg8 harg8 hc1 hc3 hc4 x0 x1).2.2.2.1, y ∈ pc.1.set :=
  View.cover_of_tiledL (runFirst c i arg2 harg2 arg3 harg3 arg4 harg4 arg5 harg5 arg6 harg6 arg7 harg7 arg8 harg8 hc1 hc3 hc4 x0 x1).2.2.2.1 S4096x1.size (by sl_kernel_rfl) y

/-- First tile: the column minima left in the first output, -/
def outFirst2 (hc1 : condFirst i) (hc3 : ¬condLater i) (hc4 : ¬condLast i) (x0 : Vec F S1x4096x256 .f32) (x1 : Vec F S1x512x256 .f32) : Vec F S1x1x512 .f32 :=
  VO2.read (Elt F) (VO2.writes (Elt F) VO2.junk (runFirst c i arg2 harg2 arg3 harg3 arg4 harg4 arg5 harg5 arg6 harg6 arg7 harg7 arg8 harg8 hc1 hc3 hc4 x0 x1).1)
/-- the family's block in the narrow format, -/
def scFirstB (hc1 : condFirst i) (hc3 : ¬condLater i) (hc4 : ¬condLast i) (x0 : Vec F S1x4096x256 .f32) (x1 : Vec F S1x512x256 .f32) : Vec F S4096x256 .bf16 :=
  VSB.read (Elt F) (VSB.writes (Elt F) VSB.junk (runFirst c i arg2 harg2 arg3 harg3 arg4 harg4 arg5 harg5 arg6 harg6 arg7 harg7 arg8 harg8 hc1 hc3 hc4 x0 x1).2.1)
/-- its squared norms, -/
def scFirstN (hc1 : condFirst i) (hc3 : ¬condLater i) (hc4 : ¬condLast i) (x0 : Vec F S1x4096x256 .f32) (x1 : Vec F S1x512x256 .f32) : Vec F S4096x1 .f32 :=
  VSN.read (Elt F) (VSN.writes (Elt F) VSN.junk (runFirst c i arg2 harg2 arg3 harg3 arg4 harg4 arg5 harg5 arg6 harg6 arg7 harg7 arg8 harg8 hc1 hc3 hc4 x0 x1).2.2.1)
/-- and the first tile's row minima. -/
def scFirstM (hc1 : condFirst i) (hc3 : ¬condLater i) (hc4 : ¬condLast i) (x0 : Vec F S1x4096x256 .f32) (x1 : Vec F S1x512x256 .f32) : Vec F S4096x1 .f32 :=
  VSM.read (Elt F) (VSM.writes (Elt F) VSM.junk (runFirst c i arg2 harg2 arg3 harg3 arg4 harg4 arg5 harg5 arg6 harg6 arg7 harg7 arg8 harg8 hc1 hc3 hc4 x0 x1).2.2.2.1)

theorem coverMiddle2 (hc1 : ¬condFirst i) (hc3 : condLater i) (hc4 : ¬condLast i) (x1 : Vec F S1x512x256 .f32) (xb : Vec F S4096x256 .bf16) (xn xm : Vec F S4096x1 .f32) (y : S1x1x512.Idx) :
    ∃ pc ∈ (runMiddle c i arg2 harg2 arg3 harg3 arg4 harg4 arg5 harg5 arg6 harg6 arg7 harg7 arg8 harg8 hc1 hc3 hc4 x1 xb xn xm).1, y ∈ pc.1.set :=
  View.cover_of_tiledL (runMiddle c i arg2 harg2 arg3 harg3 arg4 harg4 arg5 harg5 arg6 harg6 arg7 harg7 arg8 harg8 hc1 hc3 hc4 x1 xb xn xm).1 S1x1x512.size (by sl_kernel_rfl) y
theorem coverMiddleM (hc1 : ¬condFirst i) (hc3 : condLater i) (hc4 : ¬condLast i) (x1 : Vec F S1x512x256 .f32) (xb : Vec F S4096x256 .bf16) (xn xm : Vec F S4096x1 .f32) (y : S4096x1.Idx) :
    ∃ pc ∈ (runMiddle c i arg2 harg2 arg3 harg3 arg4 harg4 arg5 harg5 arg6 harg6 arg7 harg7 arg8 harg8 hc1 hc3 hc4 x1 xb xn xm).2.1, y ∈ pc.1.set :=
  View.cover_of_tiledL (runMiddle c i arg2 harg2 arg3 harg3 arg4 harg4 arg5 harg5 arg6 harg6 arg7 harg7 arg8 harg8 hc1 hc3 hc4 x1 xb xn xm).2.1 S4096x1.size (by sl_kernel_rfl) y
/-- Middle tile: the column minima left in the first output, and the folded row minima. -/
def outMiddle2 (hc1 : ¬condFirst i) (hc3 : condLater i) (hc4 : ¬condLast i) (x1 : Vec F S1x512x256 .f32) (xb : Vec F S4096x256 .bf16) (xn xm : Vec F S4096x1 .f32) : Vec F S1x1x512 .f32 :=
  VO2.read (Elt F) (VO2.writes (Elt F) VO2.junk (runMiddle c i arg2 harg2 arg3 harg3 arg4 harg4 arg5 harg5 arg6 harg6 arg7 harg7 arg8 harg8 hc1 hc3 hc4 x1 xb xn xm).1)
def scMiddleM (hc1 : ¬condFirst i) (hc3 : condLater i) (hc4 : ¬condLast i) (x1 : Vec F S1x512x256 .f32) (xb : Vec F S4096x256 .bf16) (xn xm : Vec F S4096x1 .f32) : Vec F S4096x1 .f32 :=
  VSM.read (Elt F) (VSM.writes (Elt F) VSM.junk (runMiddle c i arg2 harg2 arg3 harg3 arg4 harg4 arg5 harg5 arg6 harg6 arg7 harg7 arg8 harg8 hc1 hc3 hc4 x1 xb xn xm).2.1)

theorem coverLast2 (hc1 : ¬condFirst i) (hc3 : condLater i) (hc4 : condLast i) (x1 : Vec F S1x512x256 .f32) (xb : Vec F S4096x256 .bf16) (xn xm : Vec F S4096x1 .f32) (y : S1x1x512.Idx) :
    ∃ pc ∈ (runLast c i arg2 harg2 arg3 harg3 arg4 harg4 arg5 harg5 arg6 harg6 arg7 harg7 arg8 harg8 hc1 hc3 hc4 x1 xb xn xm).1, y ∈ pc.1.set :=
  View.cover_of_tiledL (runLast c i arg2 harg2 arg3 harg3 arg4 harg4 arg5 harg5 arg6 harg6 arg7 harg7 arg8 harg8 hc1 hc3 hc4 x1 xb xn xm).1 S1x1x512.size (by sl_kernel_rfl) y
theorem coverLast3 (hc1 : ¬condFirst i) (hc3 : condLater i) (hc4 : condLast i) (x1 : Vec F S1x512x256 .f32) (xb : Vec F S4096x256 .bf16) (xn xm : Vec F S4096x1 .f32) (y : S1x1x4096.Idx) :
    ∃ pc ∈ (runLast c i arg2 harg2 arg3 harg3 arg4 harg4 arg5 harg5 arg6 harg6 arg7 harg7 arg8 harg8 hc1 hc3 hc4 x1 xb xn xm).2.1, y ∈ pc.1.set :=
  View.cover_of_tiledL (runLast c i arg2 harg2 arg3 harg3 arg4 harg4 arg5 harg5 arg6 harg6 arg7 harg7 arg8 harg8 hc1 hc3 hc4 x1 xb xn xm).2.1 S1x1x4096.size (by sl_kernel_rfl) y
theorem coverLastM (hc1 : ¬condFirst i) (hc3 : condLater i) (hc4 : condLast i) (x1 : Vec F S1x512x256 .f32) (xb : Vec F S4096x256 .bf16) (xn xm : Vec F S4096x1 .f32) (y : S4096x1.Idx) :
    ∃ pc ∈ (runLast c i arg2 harg2 arg3 harg3 arg4 harg4 arg5 harg5 arg6 harg6 arg7 harg7 arg8 harg8 hc1 hc3 hc4 x1 xb xn xm).2.2.1, y ∈ pc.1.set :=
  View.cover_of_tiledL (runLast c i arg2 harg2 arg3 harg3 arg4 harg4 arg5 harg5 arg6 harg6 arg7 harg7 arg8 harg8 hc1 hc3 hc4 x1 xb xn xm).2.2.1 S4096x1.size (by sl_kernel_rfl) y
/-- Last tile: the column minima, the row minima laid along a row in the second output, and the folded row minima. -/
def outLast2 (hc1 : ¬condFirst i) (hc3 : condLater i) (hc4 : condLast i) (x1 : Vec F S1x512x256 .f32) (xb : Vec F S4096x256 .bf16) (xn xm : Vec F S4096x1 .f32) : Vec F S1x1x512 .f32 :=
  VO2.read (Elt F) (VO2.writes (Elt F) VO2.junk (runLast c i arg2 harg2 arg3 harg3 arg4 harg4 arg5 harg5 arg6 harg6 arg7 harg7 arg8 harg8 hc1 hc3 hc4 x1 xb xn xm).1)
def outLast3 (hc1 : ¬condFirst i) (hc3 : condLater i) (hc4 : condLast i) (x1 : Vec F S1x512x256 .f32) (xb : Vec F S4096x256 .bf16) (xn xm : Vec F S4096x1 .f32) : Vec F S1x1x4096 .f32 :=
  VO3.read (Elt F) (VO3.writes (Elt F) VO3.junk (runLast c i arg2 harg2 arg3 harg3 arg4 harg4 arg5 harg5 arg6 harg6 arg7 harg7 arg8 harg8 hc1 hc3 hc4 x1 xb xn xm).2.1)
def scLastM (hc1 : ¬condFirst i) (hc3 : condLater i) (hc4 : condLast i) (x1 : Vec F S1x512x256 .f32) (xb : Vec F S4096x256 .bf16) (xn xm : Vec F S4096x1 .f32) : Vec F S4096x1 .f32 :=
  VSM.read (Elt F) (VSM.writes (Elt F) VSM.junk (runLast c i arg2 harg2 arg3 harg3 arg4 harg4 arg5 harg5 arg6 harg6 arg7 harg7 arg8 harg8 hc1 hc3 hc4 x1 xb xn xm).2.2.1)

end Cases

/-! ## What the outputs and the scratch hold after each point -/

/-- The two outputs' staging buffers and the three scratch buffers after a point. -/
structure Held (F : FTy → Type) [FloatOps F] where
  o2 : Vec F S1x1x512 .f32
  o3 : Vec F S1x1x4096 .f32
  sB : Vec F S4096x256 .bf16
  sN : Vec F S4096x1 .f32
  sM : Vec F S4096x1 .f32

/-- Point by point: at a family's first tile the scratch is written afresh from the family's block; at a later tile
    the block and its norms are kept and the row minima folded with the tile's; the second output is stored at the
    last tile only (elsewhere it is idle, and what is recorded for it there is never consulted). -/
def heldAt (c : Dev nD) : (n : ℕ) → n < cfg0.N → Held F
  | 0, hn =>
    { o2 := outFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      o3 := VO3.read (Elt F) VO3.junk
      sB := scFirstB c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      sN := scFirstN c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      sM := scFirstM c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩) }
  | n + 1, hn =>
    if h0 : (n + 1) % 8 = 0 then
      { o2 := outFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        o3 := VO3.read (Elt F) VO3.junk
        sB := scFirstB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        sN := scFirstN c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        sM := scFirstM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩) }
    else if h7 : (n + 1) % 8 = 7 then
      { o2 := outLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM
        o3 := outLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM
        sB := (heldAt c n (Nat.lt_of_succ_lt hn)).sB
        sN := (heldAt c n (Nat.lt_of_succ_lt hn)).sN
        sM := scLastM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM }
    else
      { o2 := outMiddle2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) (fun h => h7 ((hcondLast ⟨n + 1, hn⟩).mp h)) (iblk m c 1 ⟨n + 1, hn⟩) (heldAt c n (Nat.lt_of_succ_lt hn)).sB (heldAt c n (Nat.lt_of_succ_lt hn)).sN (heldAt c n (Nat.lt_of_succ_lt hn)).sM
        o3 := VO3.read (Elt F) VO3.junk
        sB := (heldAt c n (Nat.lt_of_succ_lt hn)).sB
        sN := (heldAt c n (Nat.lt_of_succ_lt hn)).sN
        sM := scMiddleM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) (fun h => h7 ((hcondLast ⟨n + 1, hn⟩).mp h)) (iblk m c 1 ⟨n + 1, hn⟩) (heldAt c n (Nat.lt_of_succ_lt hn)).sB (heldAt c n (Nat.lt_of_succ_lt hn)).sN (heldAt c n (Nat.lt_of_succ_lt hn)).sM }

/-- `heldAt` at a family's first tile. -/
theorem heldAt_first (c : Dev nD) (t : Fin cfg0.N) (h0 : t.val % 8 = 0) :
    heldAt m c t.val t.isLt =
      { o2 := outFirst2 c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        o3 := VO3.read (Elt F) VO3.junk
        sB := scFirstB c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        sN := scFirstN c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        sM := scFirstM c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t) } := by
  obtain ⟨n, hn⟩ := t
  cases n with
  | zero => exact rfl
  | succ n => exact (dif_pos h0).trans rfl

/-- `heldAt` at a middle tile, over what the point before left. -/
theorem heldAt_middle (c : Dev nD) (t : Fin cfg0.N) (h0 : ¬t.val % 8 = 0) (h7 : ¬t.val % 8 = 7) :
    heldAt m c t.val t.isLt =
      { o2 := outMiddle2 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) (fun h => h7 ((hcondLast t).mp h)) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        o3 := VO3.read (Elt F) VO3.junk
        sB := (heldAt m c (t.val - 1) (Nat.lt_of_le_of_lt (Nat.sub_le _ _) t.isLt)).sB
        sN := (heldAt m c (t.val - 1) (Nat.lt_of_le_of_lt (Nat.sub_le _ _) t.isLt)).sN
        sM := scMiddleM c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) (fun h => h7 ((hcondLast t).mp h)) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM } := by
  obtain ⟨n, hn⟩ := t
  cases n with
  | zero => exact (by exfalso; (try dsimp only at h0); exact absurd (Nat.zero_mod _) h0)
  | succ n => exact (dif_neg h0).trans ((dif_neg h7).trans rfl)

/-- `heldAt` at a family's last tile, over what the point before left. -/
theorem heldAt_last (c : Dev nD) (t : Fin cfg0.N) (h0 : ¬t.val % 8 = 0) (h7 : t.val % 8 = 7) :
    heldAt m c t.val t.isLt =
      { o2 := outLast2 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        o3 := outLast3 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        sB := (heldAt m c (t.val - 1) (Nat.lt_of_le_of_lt (Nat.sub_le _ _) t.isLt)).sB
        sN := (heldAt m c (t.val - 1) (Nat.lt_of_le_of_lt (Nat.sub_le _ _) t.isLt)).sN
        sM := scLastM c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM } := by
  obtain ⟨n, hn⟩ := t
  cases n with
  | zero => exact (by exfalso; (try dsimp only at h0); exact absurd (Nat.zero_mod _) h0)
  | succ n => exact (dif_neg h0).trans ((dif_pos h7).trans rfl)

/-! ## The region invariant -/

/-- Before the first point the scratch holds anything; before any later point it holds what the point before left. -/
def PhiS (c : Dev nD) : (n : ℕ) → n ≤ cfg0.N → sProp 𝕄
  | 0, _ => Pipeline.ΦA spec0 c
  | n + 1, hn => iprop(iprop(owns (c : Thread nD τ) scB fullShare ((heldAt m c n hn).sB) ∗ owns (c : Thread nD τ) scN fullShare ((heldAt m c n hn).sN) ∗ owns (c : Thread nD τ) scM fullShare ((heldAt m c n hn).sM)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scB fullShare ((heldAt m c n hn).sB) ∗ owns (c : Thread nD τ) scN fullShare ((heldAt m c n hn).sN) ∗ owns (c : Thread nD τ) scM fullShare ((heldAt m c n hn).sM)) ∗ (∃ r, prngReg c r)) := rfl

theorem PhiS_pos (c : Dev nD) (n : ℕ) (h : n ≤ cfg0.N) (hz : n ≠ 0) :
    PhiS m c n h = iprop(iprop(owns (c : Thread nD τ) scB fullShare ((heldAt m c (n - 1) (by omega)).sB) ∗ owns (c : Thread nD τ) scN fullShare ((heldAt m c (n - 1) (by omega)).sN) ∗ owns (c : Thread nD τ) scM fullShare ((heldAt m c (n - 1) (by omega)).sM)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).o2
    | ⟨3, _⟩ => (heldAt m c t.val t.isLt).o3
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (heldAt m c t.val t.isLt).o2 := by dsimp only [dats]
theorem after3 (c : Dev nD) (t : Fin cfg0.N) : (dats m 0 c).after 3 t = (heldAt m c t.val t.isLt).o3 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.Kernel.Body

end
-- ==== Proof.BodyBits.Obligation.lean ====
/-
  The body obligation at every point, the run of the whole program and its frame.
-/
import proofs.«162894_j44581760532793_2_alg».proof.Proof.BodyBits.Held

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point.  The two inputs' buffers hold their blocks; `t mod 8` says which of the three runs
    applies; the invariant hands the scratch over at what the point before left (at anything before the first
    point, and at a family's first tile the old contents are simply forgotten) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val % 8 = 0
  · have hc4 : ¬condLast (grid0.coords t) := fun h => by have h7 := (hcondLast t).mp h; omega
    rw [Dat.leavesExact_idle (dats m 0 c) 3 t (idleAt3 t hc4) (noFlush3 t hc4)]
    rw [heldAt_first m c t h0]
    (try dsimp only)
    unfold outFirst2 scFirstB scFirstN scFirstM; (try dsimp only)
    by_cases hz : t.val = 0
    · rw [PhiS_castSucc m c t, PhiS_zero m c _ _ hz, PhiA0_eq]
      iintro ⟨⟨⟨HB, HN, HM⟩, Hg⟩, Ho, ⟨%d0, H0⟩, ⟨%d1, H1⟩, ⟨%d2, H2⟩, ⟨%d3, H3⟩⟩
      iapply ((runFirst c (grid0.coords t) _ _ _ _ _ _ _ _ _ _ _ _ _ _ ((hcondFirst t).mpr h0) (fun h => (hcondLater t).mp h h0) (fun h => by have h7 := (hcondLast t).mp h; have h0' := h0; (try dsimp only at h7 h0'); omega) (iblk m c 0 t) (iblk m c 1 t)).2.2.2.2 Set.univ _)
      isplitl [H0]; · iexact H0
      isplitl [H1]; · iexact H1
      isplitl [H2]; · iexists _; iexact H2
      isplitl [HB]; · iexact HB
      isplitl [HN]; · iexact HN
      isplitl [HM]; · iexact HM
      iintro ⟨H0, H1, ⟨%e2, H2⟩, ⟨%eB, HB⟩, ⟨%eN, HN⟩, ⟨%eM, HM⟩⟩
      isplitl [HB HN HM Hg]
      · isplitl [HB HN HM]
        · isplitl [HB]; · (unfold owns; iexists _; isplitr; swap; (· iexact HB); ipureintro; exact View.read_writes_of_cover _ _ _ _ _ (coverFirstB c _ _ _ _ _ _ _ _ _ _ _ _ _ _ _ _ _ _ _ _))
          isplitl [HN]; · (unfold owns; iexists _; isplitr; swap; (· iexact HN); ipureintro; exact View.read_writes_of_cover _ _ _ _ _ (coverFirstN c _ _ _ _ _ _ _ _ _ _ _ _ _ _ _ _ _ _ _ _))
          (unfold owns; iexists _; isplitr; swap; (· iexact HM); ipureintro; exact View.read_writes_of_cover _ _ _ _ _ (coverFirstM c _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverFirst2 c _ _ _ _ _ _ _ _ _ _ _ _ _ _ _ _ _ _ _ _))
      iexists _; iexact H3
    · rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runFirst c (grid0.coords t) _ _ _ _ _ _ _ _ _ _ _ _ _ _ ((hcondFirst t).mpr h0) (fun h => (hcondLater t).mp h h0) (fun h => by have h7 := (hcondLast t).mp h; have h0' := h0; (try dsimp only at h7 h0'); omega) (iblk m c 0 t) (iblk m c 1 t)).2.2.2.2 Set.univ _)
      isplitl [H0]; · iexact H0
      isplitl [H1]; · iexact H1
      isplitl [H2]; · iexists _; iexact H2
      isplitl [HB]; · iexists _; iexact HB
      isplitl [HN]; · iexists _; iexact HN
      isplitl [HM]; · iexists _; iexact HM
      iintro ⟨H0, H1, ⟨%e2, H2⟩, ⟨%eB, HB⟩, ⟨%eN, HN⟩, ⟨%eM, HM⟩⟩
      isplitl [HB HN HM Hg]
      · isplitl [HB HN HM]
        · isplitl [HB]; · (unfold owns; iexists _; isplitr; swap; (· iexact HB); ipureintro; exact View.read_writes_of_cover _ _ _ _ _ (coverFirstB c _ _ _ _ _ _ _ _ _ _ _ _ _ _ _ _ _ _ _ _))
          isplitl [HN]; · (unfold owns; iexists _; isplitr; swap; (· iexact HN); ipureintro; exact View.read_writes_of_cover _ _ _ _ _ (coverFirstN c _ _ _ _ _ _ _ _ _ _ _ _ _ _ _ _ _ _ _ _))
          (unfold owns; iexists _; isplitr; swap; (· iexact HM); ipureintro; exact View.read_writes_of_cover _ _ _ _ _ (coverFirstM c _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverFirst2 c _ _ _ _ _ _ _ _ _ _ _ _ _ _ _ _ _ _ _ _))
      iexists _; iexact H3
  · have hz : t.val ≠ 0 := fun h => h0 (by rw [h])
    by_cases h7 : t.val % 8 = 7
    · rw [show (dats m 0 c).leavesExact 3 t = owns (c : Thread nD τ) (ms3 t) fullShare ((dats m 0 c).after 3 t) from by
        unfold Dat.leavesExact; rw [liveAt3 t ((hcondLast t).mpr h7)], after3]
      rw [heldAt_last m c t h0 h7]
      (try dsimp only)
      unfold outLast2 outLast3 scLastM; (try dsimp only)
      rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runLast c (grid0.coords t) _ _ _ _ _ _ _ _ _ _ _ _ _ _ (fun h => h0 ((hcondFirst t).mp h)) ((hcondLater t).mpr h0) ((hcondLast t).mpr h7) (iblk m c 1 t) _ _ _).2.2.2 Set.univ _)
      isplitl [H1]; · iexact H1
      isplitl [H2]; · iexists _; iexact H2
      isplitl [H3]; · iexists _; iexact H3
      isplitl [HB]; · iexact HB
      isplitl [HN]; · iexact HN
      isplitl [HM]; · iexact HM
      iintro ⟨H1, ⟨%e2, H2⟩, ⟨%e3, H3⟩, HB, HN, ⟨%eM, HM⟩⟩
      isplitl [HB HN HM Hg]
      · isplitl [HB HN HM]
        · isplitl [HB]; · iexact HB
          isplitl [HN]; · iexact HN
          (unfold owns; iexists _; isplitr; swap; (· iexact HM); ipureintro; exact View.read_writes_of_cover _ _ _ _ _ (coverLastM c _ _ _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverLast2 c _ _ _ _ _ _ _ _ _ _ _ _ _ _ _ _ _ _ _ _ _ _))
      (unfold owns; iexists _; isplitr; swap; (· iexact H3); ipureintro; exact View.read_writes_of_cover _ _ _ _ _ (coverLast3 c _ _ _ _ _ _ _ _ _ _ _ _ _ _ _ _ _ _ _ _ _ _))
    · have hc4 : ¬condLast (grid0.coords t) := fun h => h7 ((hcondLast t).mp h)
      rw [Dat.leavesExact_idle (dats m 0 c) 3 t (idleAt3 t hc4) (noFlush3 t hc4)]
      rw [heldAt_middle m c t h0 h7]
      (try dsimp only)
      unfold outMiddle2 scMiddleM; (try dsimp only)
      rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runMiddle c (grid0.coords t) _ _ _ _ _ _ _ _ _ _ _ _ _ _ (fun h => h0 ((hcondFirst t).mp h)) ((hcondLater t).mpr h0) (fun h => h7 ((hcondLast t).mp h)) (iblk m c 1 t) _ _ _).2.2 Set.univ _)
      isplitl [H1]; · iexact H1
      isplitl [H2]; · iexists _; iexact H2
      isplitl [HB]; · iexact HB
      isplitl [HN]; · iexact HN
      isplitl [HM]; · iexact HM
      iintro ⟨H1, ⟨%e2, H2⟩, HB, HN, ⟨%eM, HM⟩⟩
      isplitl [HB HN HM Hg]
      · isplitl [HB HN HM]
        · isplitl [HB]; · iexact HB
          isplitl [HN]; · iexact HN
          (unfold owns; iexists _; isplitr; swap; (· iexact HM); ipureintro; exact View.read_writes_of_cover _ _ _ _ _ (coverMiddleM c _ _ _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverMiddle2 c _ _ _ _ _ _ _ _ _ _ _ _ _ _ _ _ _ _ _ _ _ _))
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HB, HN, HM⟩, Hg⟩
  isplitl [HB HN HM]
  · isplitl [HB]; · iexists _; iexact HB
    isplitl [HN]; · iexists _; iexact HN
    iexists _; iexact HM
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, every array of the pipeline ending at what the proof data
    says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.Conds.lean ====
/-
  What the three case runs of the body share: the branch conditions decided over the grid, where the
  windows are idle, the memrefs the pipeline passes, and the class invariant spelled over the scratch buffers.
-/
import proofs.«162894_j44581760532793_2_alg».proof.Proof.Gen.KernelIdeal.Frame
import proofs.«162894_j44581760532793_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions the body branches on, over the grid

The grid is eight families by eight tiles; the second coordinate `j` is the tile.  The body resets its
per-family scratch when `j = 0`, folds the running row minimum when `j > 0`, and hands the row minima
over when `j = 7`.  Point `t` of the grid has `j = t mod 8`. -/

/-- The tile is the first of its family (`j = 0`). -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The tile is a later one (`j > 0`). -/
abbrev condLater (i : grid0.Coords) : Prop := (Scalar.cmpi .ne (Scalar.extui (Scalar.cmpi .sgt (BitVec.ofNat 32 (i 1).val) 0#32)) 0#32) = 1#1
theorem hcondLater : ∀ t : Fin cfg0.N, condLater (grid0.coords t) ↔ t.val % 8 ≠ 0 :=
  (by decide +kernel : ∀ t : Fin grid0.N, condLater (grid0.coords t) ↔ t.val % 8 ≠ 0)

/-- The tile is the last of its family (`j = 7`). -/
abbrev condLast (i : grid0.Coords) : Prop := k0_cond4 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from a family's last tile the row-minimum window is idle and is not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The three scratch buffers: the first family's block in the narrow format, its squared norms, the running row minima. -/
abbrev scB : Memref sig .tc .vmem S4096x256 .bf16 := Memref.whole cc0_scratch0
abbrev scN : Memref sig .tc .vmem S4096x1 .f32 := Memref.whole cc0_scratch1
abbrev scM : Memref sig .tc .vmem S4096x1 .f32 := Memref.whole cc0_scratch2
/-- Views through which the contents of the outputs and of the scratch are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view
abbrev VSB : View sig .tc .vmem S4096x256 .bf16 := scB.view
abbrev VSN : View sig .tc .vmem S4096x1 .f32 := scN.view
abbrev VSM : View sig .tc .vmem S4096x1 .f32 := scM.view

/-- The class invariant with the three scratch buffers as memrefs owned at some contents. -/
theorem PhiA0_eq (c : Dev nD) :
    (Pipeline.ΦA spec0 c : sProp 𝕄)
      = iprop(iprop((∃ d, owns (c : Thread nD τ) scB fullShare d) ∗ (∃ d, owns (c : Thread nD τ) scN fullShare d) ∗ (∃ d, owns (c : Thread nD τ) scM fullShare d)) ∗ (∃ r, prngReg c r)) := by
  unfold Pipeline.ΦA; rw [scopedRest0_eq]; simp only [scB, scN, scM, owns_whole]; try rfl

end Cert.KernelIdeal.Body

end
-- ==== Proof.BodyIdeal.RunFirst.lean ====
/-
  The body's run at the first tile of a family.
-/
import proofs.«162894_j44581760532793_2_alg».proof.Proof.BodyIdeal.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST TILE OF A FAMILY (`j = 0`).  The body reads the family's block `x0` and the tile `x1`, writes the
    block in the narrow format and its squared norms into the first two scratch buffers, computes the tile's
    distances from them, stores the column minima into the first output and the row minima into the third
    scratch.  The pieces each buffer ends with are the witnesses the run finds. -/
noncomputable def runFirst (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : condFirst i) (hc3 : ¬condLater i) (hc4 : ¬condLast i)
    (x0 : Vec F S1x4096x256 .f32) (x1 : Vec F S1x512x256 .f32) :
    Σ' (L2 : List (View.Piece (Elt F) S1x1x512 .f32)) (LB : List (View.Piece (Elt F) S4096x256 .bf16)) (LN : List (View.Piece (Elt F) S4096x1 .f32)), { LM : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg6.view.loc (c : Thread nD τ) ↦[arg6.view.set]{fullShare} arg6.view.writes (Elt F) f LB) ∗ (∃ f, arg7.view.loc (c : Thread nD τ) ↦[arg7.view.set]{fullShare} arg7.view.writes (Elt F) f LN) ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d6, %f6, -, H6⟩, ⟨%d7, %f7, -, H7⟩, ⟨%d8, %f8, -, H8⟩, Hk⟩
    obtain rfl := harg2.eq_unread hf0; obtain rfl := harg3.eq_unread hf1
    sl_exec (disch := first | exact hc1 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H6]; · iexists _; iexact H6
    isplitl [H7]; · iexists _; iexact H7
    iexists _; iexact H8

end Cert.KernelIdeal.Body

end
-- ==== Proof.BodyIdeal.RunMiddle.lean ====
/-
  The body's run at a middle tile of a family.
-/
import proofs.«162894_j44581760532793_2_alg».proof.Proof.BodyIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE TILE (`0 < j < 7`).  The scratch buffers hold the family's block `xb`, its squared norms `xn` and the
    running row minima `xm`; the body reads them and the tile `x1`, stores the tile's column minima into the first
    output and folds the tile's row minima into the third scratch. -/
noncomputable def runMiddle (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : ¬condFirst i) (hc3 : condLater i) (hc4 : ¬condLast i)
    (x1 : Vec F S1x512x256 .f32) (xb : Vec F S4096x256 .bf16) (xn : Vec F S4096x1 .f32) (xm : Vec F S4096x1 .f32) :
    Σ' (L2 : List (View.Piece (Elt F) S1x1x512 .f32)), { LM : List (View.Piece (Elt F) S4096x1 .f32) //
      ∀ (E : Set ℕ) (K : PUnit → sProp 𝕄),
        iprop(owns (c : Thread nD τ) arg3 fullShare x1 ∗ (∃ d, owns (c : Thread nD τ) arg4 fullShare d)
            ∗ owns (c : Thread nD τ) arg6 fullShare xb ∗ owns (c : Thread nD τ) arg7 fullShare xn ∗ owns (c : Thread nD τ) arg8 fullShare xm
            ∗ (iprop(owns (c : Thread nD τ) arg3 fullShare x1 ∗ (∃ f, arg4.view.loc (c : Thread nD τ) ↦[arg4.view.set]{fullShare} arg4.view.writes (Elt F) f L2)
                ∗ owns (c : Thread nD τ) arg6 fullShare xb ∗ owns (c : Thread nD τ) arg7 fullShare xn ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, fun E K => ?run⟩
  case run =>
    simp only [cc0__chamfer_kernel_eq_skeleton]; unfold cc0__chamfer_kernel_skel
    unfold owns
    iintro ⟨⟨%f1, %hf1, H1⟩, ⟨%d2, %f2, -, H2⟩, ⟨%f6, %hf6, H6⟩, ⟨%f7, %hf7, H7⟩, ⟨%f8, %hf8, H8⟩, Hk⟩
    obtain rfl := harg3.eq_unread hf1; obtain rfl := harg6.eq_unread hf6; obtain rfl := harg7.eq_unread hf7; obtain rfl := harg8.eq_unread hf8
    sl_exec (disch := first | exact hc1 | exact hc3 | exact hc4)
    sl_step
    iapply Hk
    isplitl [H1]
    · iexists _; isplitr; · ipureintro; exact harg3.read_unread _
      iexact H1
    isplitl [H2]; · iexists _; iexact H2
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.BodyIdeal.RunLast.lean ====
/-
  The body's run at the last tile of a family.
-/
import proofs.«162894_j44581760532793_2_alg».proof.Proof.BodyIdeal.RunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST TILE OF A FAMILY (`j = 7`).  As a middle tile, and then the folded row minima are laid along a row
    and stored into the second output. -/
noncomputable def runLast (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole) (hc1 : ¬condFirst i) (hc3 : condLater i) (hc4 : condLast i)
    (x1 : Vec F S1x512x256 .f32) (xb : Vec F S4096x256 .bf16) (xn : Vec F S4096x1 .f32) (xm : Vec F S4096x1 .f32) :
    Σ' (L2 : List (View.Piece (Elt F) S1x1x512 .f32)) (L3 : List (View.Piece (Elt F) S1x1x4096 .f32)), { LM : List (View.Piece (Elt F) S4096x1 .f32) //
      ∀ (E : Set ℕ) (K : PUnit → sProp 𝕄),
        iprop(owns (c : Thread nD τ) arg3 fullShare x1 ∗ (∃ d, owns (c : Thread nD τ) arg4 fullShare d) ∗ (∃ d, owns (c : Thread nD τ) arg5 fullShare d)
            ∗ owns (c : Thread nD τ) arg6 fullShare xb ∗ owns (c : Thread nD τ) arg7 fullShare xn ∗ owns (c : Thread nD τ) arg8 fullShare xm
            ∗ (iprop(owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xb ∗ owns (c : Thread nD τ) arg7 fullShare xn ∗ (∃ f, arg8.view.loc (c : Thread nD τ) ↦[arg8.view.set]{fullShare} arg8.view.writes (Elt F) f LM)) -∗ K ⟨⟩))
          ⊢ wp frame (wpE (defs₀ (F := F)) Variants.none c none) E (cc0__chamfer_kernel i arg2 harg2 arg3 harg3 arg4 harg4 arg5 harg5 arg6 harg6 arg7 harg7 arg8 harg8) K } := by
  refine ⟨?_, ?_, ?_, fun E K => ?run⟩
  case run =>
    simp only [cc0__chamfer_kernel_eq_skeleton]; unfold cc0__chamfer_kernel_skel
    unfold owns
    iintro ⟨⟨%f1, %hf1, H1⟩, ⟨%d2, %f2, -, H2⟩, ⟨%d3, %f3, -, H3⟩, ⟨%f6, %hf6, H6⟩, ⟨%f7, %hf7, H7⟩, ⟨%f8, %hf8, H8⟩, Hk⟩
    obtain rfl := harg3.eq_unread hf1; obtain rfl := harg6.eq_unread hf6; obtain rfl := harg7.eq_unread hf7; obtain rfl := harg8.eq_unread hf8
    sl_exec (disch := first | exact hc1 | exact hc3 | exact hc4)
    sl_step
    iapply Hk
    isplitl [H1]
    · iexists _; isplitr; · ipureintro; exact harg3.read_unread _
      iexact H1
    isplitl [H2]; · iexists _; iexact H2
    isplitl [H3]; · iexists _; iexact H3
    isplitl [H6]
    · iexists _; isplitr; · ipureintro; exact harg6.read_unread _
      iexact H6
    isplitl [H7]
    · iexists _; isplitr; · ipureintro; exact harg7.read_unread _
      iexact H7
    iexists _; iexact H8

end Cert.KernelIdeal.Body

end
-- ==== Proof.BodyIdeal.Held.lean ====
/-
  What the body leaves in its outputs and carries in its scratch, point by point, and the pipeline's proof
  data stated over it.
-/
import proofs.«162894_j44581760532793_2_alg».proof.Proof.BodyIdeal.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces its run found -/

section Cases
variable (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole)

/-- First tile: the pieces stored into the first output cover its block. -/
theorem coverFirst2 (hc1 : condFirst i) (hc3 : ¬condLater i) (hc4 : ¬condLast i) (x0 : Vec F S1x4096x256 .f32) (x1 : Vec F S1x512x256 .f32) (y : S1x1x512.Idx) :
    ∃ pc ∈ (runFirst c i arg2 harg2 arg3 harg3 arg4 harg4 arg5 harg5 arg6 harg6 arg7 harg7 arg8 harg8 hc1 hc3 hc4 x0 x1).1, y ∈ pc.1.set :=
  View.cover_of_tiledL (runFirst c i arg2 harg2 arg3 harg3 arg4 harg4 arg5 harg5 arg6 harg6 arg7 harg7 arg8 harg8 hc1 hc3 hc4 x0 x1).1 S1x1x512.size (by sl_kernel_rfl) y
theorem coverFirstB (hc1 : condFirst i) (hc3 : ¬condLater i) (hc4 : ¬condLast i) (x0 : Vec F S1x4096x256 .f32) (x1 : Vec F S1x512x256 .f32) (y : S4096x256.Idx) :
    ∃ pc ∈ (runFirst c i arg2 harg2 arg3 harg3 arg4 harg4 arg5 harg5 arg6 harg6 arg7 harg7 arg8 harg8 hc1 hc3 hc4 x0 x1).2.1, y ∈ pc.1.set :=
  View.cover_of_tiledL (runFirst c i arg2 harg2 arg3 harg3 arg4 harg4 arg5 harg5 arg6 harg6 arg7 harg7 arg8 harg8 hc1 hc3 hc4 x0 x1).2.1 S4096x256.size (by sl_kernel_rfl) y
theorem coverFirstN (hc1 : condFirst i) (hc3 : ¬condLater i) (hc4 : ¬condLast i) (x0 : Vec F S1x4096x256 .f32) (x1 : Vec F S1x512x256 .f32) (y : S4096x1.Idx) :
    ∃ pc ∈ (runFirst c i arg2 harg2 arg3 harg3 arg4 harg4 arg5 harg5 arg6 harg6 arg7 harg7 arg8 harg8 hc1 hc3 hc4 x0 x1).2.2.1, y ∈ pc.1.set :=
  View.cover_of_tiledL (runFirst c i arg2 harg2 arg3 harg3 arg4 harg4 arg5 harg5 arg6 harg6 arg7 harg7 arg8 harg8 hc1 hc3 hc4 x0 x1).2.2.1 S4096x1.size (by sl_kernel_rfl) y
theorem coverFirstM (hc1 : condFirst i) (hc3 : ¬condLater i) (hc4 : ¬condLast i) (x0 : Vec F S1x4096x256 .f32) (x1 : Vec F S1x512x256 .f32) (y : S4096x1.Idx) :
    ∃ pc ∈ (runFirst c i arg2 harg2 arg3 harg3 arg4 harg4 arg5 harg5 arg6 harg6 arg7 harg7 arg8 harg8 hc1 hc3 hc4 x0 x1).2.2.2.1, y ∈ pc.1.set :=
  View.cover_of_tiledL (runFirst c i arg2 harg2 arg3 harg3 arg4 harg4 arg5 harg5 arg6 harg6 arg7 harg7 arg8 harg8 hc1 hc3 hc4 x0 x1).2.2.2.1 S4096x1.size (by sl_kernel_rfl) y

/-- First tile: the column minima left in the first output, -/
def outFirst2 (hc1 : condFirst i) (hc3 : ¬condLater i) (hc4 : ¬condLast i) (x0 : Vec F S1x4096x256 .f32) (x1 : Vec F S1x512x256 .f32) : Vec F S1x1x512 .f32 :=
  VO2.read (Elt F) (VO2.writes (Elt F) VO2.junk (runFirst c i arg2 harg2 arg3 harg3 arg4 harg4 arg5 harg5 arg6 harg6 arg7 harg7 arg8 harg8 hc1 hc3 hc4 x0 x1).1)
/-- the family's block in the narrow format, -/
def scFirstB (hc1 : condFirst i) (hc3 : ¬condLater i) (hc4 : ¬condLast i) (x0 : Vec F S1x4096x256 .f32) (x1 : Vec F S1x512x256 .f32) : Vec F S4096x256 .bf16 :=
  VSB.read (Elt F) (VSB.writes (Elt F) VSB.junk (runFirst c i arg2 harg2 arg3 harg3 arg4 harg4 arg5 harg5 arg6 harg6 arg7 harg7 arg8 harg8 hc1 hc3 hc4 x0 x1).2.1)
/-- its squared norms, -/
def scFirstN (hc1 : condFirst i) (hc3 : ¬condLater i) (hc4 : ¬condLast i) (x0 : Vec F S1x4096x256 .f32) (x1 : Vec F S1x512x256 .f32) : Vec F S4096x1 .f32 :=
  VSN.read (Elt F) (VSN.writes (Elt F) VSN.junk (runFirst c i arg2 harg2 arg3 harg3 arg4 harg4 arg5 harg5 arg6 harg6 arg7 harg7 arg8 harg8 hc1 hc3 hc4 x0 x1).2.2.1)
/-- and the first tile's row minima. -/
def scFirstM (hc1 : condFirst i) (hc3 : ¬condLater i) (hc4 : ¬condLast i) (x0 : Vec F S1x4096x256 .f32) (x1 : Vec F S1x512x256 .f32) : Vec F S4096x1 .f32 :=
  VSM.read (Elt F) (VSM.writes (Elt F) VSM.junk (runFirst c i arg2 harg2 arg3 harg3 arg4 harg4 arg5 harg5 arg6 harg6 arg7 harg7 arg8 harg8 hc1 hc3 hc4 x0 x1).2.2.2.1)

theorem coverMiddle2 (hc1 : ¬condFirst i) (hc3 : condLater i) (hc4 : ¬condLast i) (x1 : Vec F S1x512x256 .f32) (xb : Vec F S4096x256 .bf16) (xn xm : Vec F S4096x1 .f32) (y : S1x1x512.Idx) :
    ∃ pc ∈ (runMiddle c i arg2 harg2 arg3 harg3 arg4 harg4 arg5 harg5 arg6 harg6 arg7 harg7 arg8 harg8 hc1 hc3 hc4 x1 xb xn xm).1, y ∈ pc.1.set :=
  View.cover_of_tiledL (runMiddle c i arg2 harg2 arg3 harg3 arg4 harg4 arg5 harg5 arg6 harg6 arg7 harg7 arg8 harg8 hc1 hc3 hc4 x1 xb xn xm).1 S1x1x512.size (by sl_kernel_rfl) y
theorem coverMiddleM (hc1 : ¬condFirst i) (hc3 : condLater i) (hc4 : ¬condLast i) (x1 : Vec F S1x512x256 .f32) (xb : Vec F S4096x256 .bf16) (xn xm : Vec F S4096x1 .f32) (y : S4096x1.Idx) :
    ∃ pc ∈ (runMiddle c i arg2 harg2 arg3 harg3 arg4 harg4 arg5 harg5 arg6 harg6 arg7 harg7 arg8 harg8 hc1 hc3 hc4 x1 xb xn xm).2.1, y ∈ pc.1.set :=
  View.cover_of_tiledL (runMiddle c i arg2 harg2 arg3 harg3 arg4 harg4 arg5 harg5 arg6 harg6 arg7 harg7 arg8 harg8 hc1 hc3 hc4 x1 xb xn xm).2.1 S4096x1.size (by sl_kernel_rfl) y
/-- Middle tile: the column minima left in the first output, and the folded row minima. -/
def outMiddle2 (hc1 : ¬condFirst i) (hc3 : condLater i) (hc4 : ¬condLast i) (x1 : Vec F S1x512x256 .f32) (xb : Vec F S4096x256 .bf16) (xn xm : Vec F S4096x1 .f32) : Vec F S1x1x512 .f32 :=
  VO2.read (Elt F) (VO2.writes (Elt F) VO2.junk (runMiddle c i arg2 harg2 arg3 harg3 arg4 harg4 arg5 harg5 arg6 harg6 arg7 harg7 arg8 harg8 hc1 hc3 hc4 x1 xb xn xm).1)
def scMiddleM (hc1 : ¬condFirst i) (hc3 : condLater i) (hc4 : ¬condLast i) (x1 : Vec F S1x512x256 .f32) (xb : Vec F S4096x256 .bf16) (xn xm : Vec F S4096x1 .f32) : Vec F S4096x1 .f32 :=
  VSM.read (Elt F) (VSM.writes (Elt F) VSM.junk (runMiddle c i arg2 harg2 arg3 harg3 arg4 harg4 arg5 harg5 arg6 harg6 arg7 harg7 arg8 harg8 hc1 hc3 hc4 x1 xb xn xm).2.1)

theorem coverLast2 (hc1 : ¬condFirst i) (hc3 : condLater i) (hc4 : condLast i) (x1 : Vec F S1x512x256 .f32) (xb : Vec F S4096x256 .bf16) (xn xm : Vec F S4096x1 .f32) (y : S1x1x512.Idx) :
    ∃ pc ∈ (runLast c i arg2 harg2 arg3 harg3 arg4 harg4 arg5 harg5 arg6 harg6 arg7 harg7 arg8 harg8 hc1 hc3 hc4 x1 xb xn xm).1, y ∈ pc.1.set :=
  View.cover_of_tiledL (runLast c i arg2 harg2 arg3 harg3 arg4 harg4 arg5 harg5 arg6 harg6 arg7 harg7 arg8 harg8 hc1 hc3 hc4 x1 xb xn xm).1 S1x1x512.size (by sl_kernel_rfl) y
theorem coverLast3 (hc1 : ¬condFirst i) (hc3 : condLater i) (hc4 : condLast i) (x1 : Vec F S1x512x256 .f32) (xb : Vec F S4096x256 .bf16) (xn xm : Vec F S4096x1 .f32) (y : S1x1x4096.Idx) :
    ∃ pc ∈ (runLast c i arg2 harg2 arg3 harg3 arg4 harg4 arg5 harg5 arg6 harg6 arg7 harg7 arg8 harg8 hc1 hc3 hc4 x1 xb xn xm).2.1, y ∈ pc.1.set :=
  View.cover_of_tiledL (runLast c i arg2 harg2 arg3 harg3 arg4 harg4 arg5 harg5 arg6 harg6 arg7 harg7 arg8 harg8 hc1 hc3 hc4 x1 xb xn xm).2.1 S1x1x4096.size (by sl_kernel_rfl) y
theorem coverLastM (hc1 : ¬condFirst i) (hc3 : condLater i) (hc4 : condLast i) (x1 : Vec F S1x512x256 .f32) (xb : Vec F S4096x256 .bf16) (xn xm : Vec F S4096x1 .f32) (y : S4096x1.Idx) :
    ∃ pc ∈ (runLast c i arg2 harg2 arg3 harg3 arg4 harg4 arg5 harg5 arg6 harg6 arg7 harg7 arg8 harg8 hc1 hc3 hc4 x1 xb xn xm).2.2.1, y ∈ pc.1.set :=
  View.cover_of_tiledL (runLast c i arg2 harg2 arg3 harg3 arg4 harg4 arg5 harg5 arg6 harg6 arg7 harg7 arg8 harg8 hc1 hc3 hc4 x1 xb xn xm).2.2.1 S4096x1.size (by sl_kernel_rfl) y
/-- Last tile: the column minima, the row minima laid along a row in the second output, and the folded row minima. -/
def outLast2 (hc1 : ¬condFirst i) (hc3 : condLater i) (hc4 : condLast i) (x1 : Vec F S1x512x256 .f32) (xb : Vec F S4096x256 .bf16) (xn xm : Vec F S4096x1 .f32) : Vec F S1x1x512 .f32 :=
  VO2.read (Elt F) (VO2.writes (Elt F) VO2.junk (runLast c i arg2 harg2 arg3 harg3 arg4 harg4 arg5 harg5 arg6 harg6 arg7 harg7 arg8 harg8 hc1 hc3 hc4 x1 xb xn xm).1)
def outLast3 (hc1 : ¬condFirst i) (hc3 : condLater i) (hc4 : condLast i) (x1 : Vec F S1x512x256 .f32) (xb : Vec F S4096x256 .bf16) (xn xm : Vec F S4096x1 .f32) : Vec F S1x1x4096 .f32 :=
  VO3.read (Elt F) (VO3.writes (Elt F) VO3.junk (runLast c i arg2 harg2 arg3 harg3 arg4 harg4 arg5 harg5 arg6 harg6 arg7 harg7 arg8 harg8 hc1 hc3 hc4 x1 xb xn xm).2.1)
def scLastM (hc1 : ¬condFirst i) (hc3 : condLater i) (hc4 : condLast i) (x1 : Vec F S1x512x256 .f32) (xb : Vec F S4096x256 .bf16) (xn xm : Vec F S4096x1 .f32) : Vec F S4096x1 .f32 :=
  VSM.read (Elt F) (VSM.writes (Elt F) VSM.junk (runLast c i arg2 harg2 arg3 harg3 arg4 harg4 arg5 harg5 arg6 harg6 arg7 harg7 arg8 harg8 hc1 hc3 hc4 x1 xb xn xm).2.2.1)

end Cases

/-! ## What the outputs and the scratch hold after each point -/

/-- The two outputs' staging buffers and the three scratch buffers after a point. -/
structure Held (F : FTy → Type) [FloatOps F] where
  o2 : Vec F S1x1x512 .f32
  o3 : Vec F S1x1x4096 .f32
  sB : Vec F S4096x256 .bf16
  sN : Vec F S4096x1 .f32
  sM : Vec F S4096x1 .f32

/-- Point by point: at a family's first tile the scratch is written afresh from the family's block; at a later tile
    the block and its norms are kept and the row minima folded with the tile's; the second output is stored at the
    last tile only (elsewhere it is idle, and what is recorded for it there is never consulted). -/
def heldAt (c : Dev nD) : (n : ℕ) → n < cfg0.N → Held F
  | 0, hn =>
    { o2 := outFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      o3 := VO3.read (Elt F) VO3.junk
      sB := scFirstB c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      sN := scFirstN c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩)
      sM := scFirstM c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scB (Memref.isWhole_whole _) scN (Memref.isWhole_whole _) scM (Memref.isWhole_whole _) ((hcondFirst ⟨0, hn⟩).mpr (Nat.zero_mod 8)) (fun h => (hcondLater ⟨0, hn⟩).mp h (Nat.zero_mod 8)) (fun h => by have h7 := (hcondLast ⟨0, hn⟩).mp h; have h0' := (Nat.zero_mod 8); (try dsimp only at h7 h0'); omega) (iblk m c 0 ⟨0, hn⟩) (iblk m c 1 ⟨0, hn⟩) }
  | n + 1, hn =>
    if h0 : (n + 1) % 8 = 0 then
      { o2 := outFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        o3 := VO3.read (Elt F) VO3.junk
        sB := scFirstB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        sN := scFirstN c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩)
        sM := scFirstM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) ((hcondFirst ⟨n + 1, hn⟩).mpr h0) (fun h => (hcondLater ⟨n + 1, hn⟩).mp h h0) (fun h => by have h7 := (hcondLast ⟨n + 1, hn⟩).mp h; have h0' := h0; (try dsimp only at h7 h0'); omega) (iblk m c 0 ⟨n + 1, hn⟩) (iblk m c 1 ⟨n + 1, hn⟩) }
    else if h7 : (n + 1) % 8 = 7 then
      { o2 := outLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM
        o3 := outLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM
        sB := (heldAt c n (Nat.lt_of_succ_lt hn)).sB
        sN := (heldAt c n (Nat.lt_of_succ_lt hn)).sN
        sM := scLastM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) ((hcondLast ⟨n + 1, hn⟩).mpr h7) (iblk m c 1 ⟨n + 1, hn⟩) (heldAt c n (Nat.lt_of_succ_lt hn)).sB (heldAt c n (Nat.lt_of_succ_lt hn)).sN (heldAt c n (Nat.lt_of_succ_lt hn)).sM }
    else
      { o2 := outMiddle2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) (fun h => h7 ((hcondLast ⟨n + 1, hn⟩).mp h)) (iblk m c 1 ⟨n + 1, hn⟩) (heldAt c n (Nat.lt_of_succ_lt hn)).sB (heldAt c n (Nat.lt_of_succ_lt hn)).sN (heldAt c n (Nat.lt_of_succ_lt hn)).sM
        o3 := VO3.read (Elt F) VO3.junk
        sB := (heldAt c n (Nat.lt_of_succ_lt hn)).sB
        sN := (heldAt c n (Nat.lt_of_succ_lt hn)).sN
        sM := scMiddleM c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scB (Memref.isWhole_whole _) scN (Memref.isWhole_whole _) scM (Memref.isWhole_whole _) (fun h => h0 ((hcondFirst ⟨n + 1, hn⟩).mp h)) ((hcondLater ⟨n + 1, hn⟩).mpr h0) (fun h => h7 ((hcondLast ⟨n + 1, hn⟩).mp h)) (iblk m c 1 ⟨n + 1, hn⟩) (heldAt c n (Nat.lt_of_succ_lt hn)).sB (heldAt c n (Nat.lt_of_succ_lt hn)).sN (heldAt c n (Nat.lt_of_succ_lt hn)).sM }

/-- `heldAt` at a family's first tile. -/
theorem heldAt_first (c : Dev nD) (t : Fin cfg0.N) (h0 : t.val % 8 = 0) :
    heldAt m c t.val t.isLt =
      { o2 := outFirst2 c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        o3 := VO3.read (Elt F) VO3.junk
        sB := scFirstB c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        sN := scFirstN c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t)
        sM := scFirstM c (grid0.coords t) (ms0 t) (hs0 t) (ms1 t) (hs1 t) (ms2 t) (hs2 t) (ms3 t) (hs3 t) scB (Memref.isWhole_whole _) scN (Memref.isWhole_whole _) scM (Memref.isWhole_whole _) ((hcondFirst t).mpr h0) (fun h => (hcondLater t).mp h h0) (fun h => by have h7 := (hcondLast t).mp h; have h0' := h0; (try dsimp only at h7 h0'); omega) (iblk m c 0 t) (iblk m c 1 t) } := by
  obtain ⟨n, hn⟩ := t
  cases n with
  | zero => exact rfl
  | succ n => exact (dif_pos h0).trans rfl

/-- `heldAt` at a middle tile, over what the point before left. -/
theorem heldAt_middle (c : Dev nD) (t : Fin cfg0.N) (h0 : ¬t.val % 8 = 0) (h7 : ¬t.val % 8 = 7) :
    heldAt m c t.val t.isLt =
      { o2 := outMiddle2 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) (fun h => h7 ((hcondLast t).mp h)) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        o3 := VO3.read (Elt F) VO3.junk
        sB := (heldAt m c (t.val - 1) (Nat.lt_of_le_of_lt (Nat.sub_le _ _) t.isLt)).sB
        sN := (heldAt m c (t.val - 1) (Nat.lt_of_le_of_lt (Nat.sub_le _ _) t.isLt)).sN
        sM := scMiddleM c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) (fun h => h7 ((hcondLast t).mp h)) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM } := by
  obtain ⟨n, hn⟩ := t
  cases n with
  | zero => exact (by exfalso; (try dsimp only at h0); exact absurd (Nat.zero_mod _) h0)
  | succ n => exact (dif_neg h0).trans ((dif_neg h7).trans rfl)

/-- `heldAt` at a family's last tile, over what the point before left. -/
theorem heldAt_last (c : Dev nD) (t : Fin cfg0.N) (h0 : ¬t.val % 8 = 0) (h7 : t.val % 8 = 7) :
    heldAt m c t.val t.isLt =
      { o2 := outLast2 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        o3 := outLast3 c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM
        sB := (heldAt m c (t.val - 1) (Nat.lt_of_le_of_lt (Nat.sub_le _ _) t.isLt)).sB
        sN := (heldAt m c (t.val - 1) (Nat.lt_of_le_of_lt (Nat.sub_le _ _) t.isLt)).sN
        sM := scLastM c (grid0.coords t) (ms0 t) (hs0 t) (ms1 t) (hs1 t) (ms2 t) (hs2 t) (ms3 t) (hs3 t) scB (Memref.isWhole_whole _) scN (Memref.isWhole_whole _) scM (Memref.isWhole_whole _) (fun h => h0 ((hcondFirst t).mp h)) ((hcondLater t).mpr h0) ((hcondLast t).mpr h7) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM } := by
  obtain ⟨n, hn⟩ := t
  cases n with
  | zero => exact (by exfalso; (try dsimp only at h0); exact absurd (Nat.zero_mod _) h0)
  | succ n => exact (dif_neg h0).trans ((dif_pos h7).trans rfl)

/-! ## The region invariant -/

/-- Before the first point the scratch holds anything; before any later point it holds what the point before left. -/
def PhiS (c : Dev nD) : (n : ℕ) → n ≤ cfg0.N → sProp 𝕄
  | 0, _ => Pipeline.ΦA spec0 c
  | n + 1, hn => iprop(iprop(owns (c : Thread nD τ) scB fullShare ((heldAt m c n hn).sB) ∗ owns (c : Thread nD τ) scN fullShare ((heldAt m c n hn).sN) ∗ owns (c : Thread nD τ) scM fullShare ((heldAt m c n hn).sM)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scB fullShare ((heldAt m c n hn).sB) ∗ owns (c : Thread nD τ) scN fullShare ((heldAt m c n hn).sN) ∗ owns (c : Thread nD τ) scM fullShare ((heldAt m c n hn).sM)) ∗ (∃ r, prngReg c r)) := rfl

theorem PhiS_pos (c : Dev nD) (n : ℕ) (h : n ≤ cfg0.N) (hz : n ≠ 0) :
    PhiS m c n h = iprop(iprop(owns (c : Thread nD τ) scB fullShare ((heldAt m c (n - 1) (by omega)).sB) ∗ owns (c : Thread nD τ) scN fullShare ((heldAt m c (n - 1) (by omega)).sN) ∗ owns (c : Thread nD τ) scM fullShare ((heldAt m c (n - 1) (by omega)).sM)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).o2
    | ⟨3, _⟩ => (heldAt m c t.val t.isLt).o3
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (heldAt m c t.val t.isLt).o2 := by dsimp only [dats]
theorem after3 (c : Dev nD) (t : Fin cfg0.N) : (dats m 0 c).after 3 t = (heldAt m c t.val t.isLt).o3 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.KernelIdeal.Body

end
-- ==== Proof.BodyIdeal.Obligation.lean ====
/-
  The body obligation at every point, the run of the whole program and its frame.
-/
import proofs.«162894_j44581760532793_2_alg».proof.Proof.BodyIdeal.Held

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point.  The two inputs' buffers hold their blocks; `t mod 8` says which of the three runs
    applies; the invariant hands the scratch over at what the point before left (at anything before the first
    point, and at a family's first tile the old contents are simply forgotten) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val % 8 = 0
  · have hc4 : ¬condLast (grid0.coords t) := fun h => by have h7 := (hcondLast t).mp h; omega
    rw [Dat.leavesExact_idle (dats m 0 c) 3 t (idleAt3 t hc4) (noFlush3 t hc4)]
    rw [heldAt_first m c t h0]
    (try dsimp only)
    unfold outFirst2 scFirstB scFirstN scFirstM; (try dsimp only)
    by_cases hz : t.val = 0
    · rw [PhiS_castSucc m c t, PhiS_zero m c _ _ hz, PhiA0_eq]
      iintro ⟨⟨⟨HB, HN, HM⟩, Hg⟩, Ho, ⟨%d0, H0⟩, ⟨%d1, H1⟩, ⟨%d2, H2⟩, ⟨%d3, H3⟩⟩
      iapply ((runFirst c (grid0.coords t) _ _ _ _ _ _ _ _ _ _ _ _ _ _ ((hcondFirst t).mpr h0) (fun h => (hcondLater t).mp h h0) (fun h => by have h7 := (hcondLast t).mp h; have h0' := h0; (try dsimp only at h7 h0'); omega) (iblk m c 0 t) (iblk m c 1 t)).2.2.2.2 Set.univ _)
      isplitl [H0]; · iexact H0
      isplitl [H1]; · iexact H1
      isplitl [H2]; · iexists _; iexact H2
      isplitl [HB]; · iexact HB
      isplitl [HN]; · iexact HN
      isplitl [HM]; · iexact HM
      iintro ⟨H0, H1, ⟨%e2, H2⟩, ⟨%eB, HB⟩, ⟨%eN, HN⟩, ⟨%eM, HM⟩⟩
      isplitl [HB HN HM Hg]
      · isplitl [HB HN HM]
        · isplitl [HB]; · (unfold owns; iexists _; isplitr; swap; (· iexact HB); ipureintro; exact View.read_writes_of_cover _ _ _ _ _ (coverFirstB c _ _ _ _ _ _ _ _ _ _ _ _ _ _ _ _ _ _ _ _))
          isplitl [HN]; · (unfold owns; iexists _; isplitr; swap; (· iexact HN); ipureintro; exact View.read_writes_of_cover _ _ _ _ _ (coverFirstN c _ _ _ _ _ _ _ _ _ _ _ _ _ _ _ _ _ _ _ _))
          (unfold owns; iexists _; isplitr; swap; (· iexact HM); ipureintro; exact View.read_writes_of_cover _ _ _ _ _ (coverFirstM c _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverFirst2 c _ _ _ _ _ _ _ _ _ _ _ _ _ _ _ _ _ _ _ _))
      iexists _; iexact H3
    · rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runFirst c (grid0.coords t) _ _ _ _ _ _ _ _ _ _ _ _ _ _ ((hcondFirst t).mpr h0) (fun h => (hcondLater t).mp h h0) (fun h => by have h7 := (hcondLast t).mp h; have h0' := h0; (try dsimp only at h7 h0'); omega) (iblk m c 0 t) (iblk m c 1 t)).2.2.2.2 Set.univ _)
      isplitl [H0]; · iexact H0
      isplitl [H1]; · iexact H1
      isplitl [H2]; · iexists _; iexact H2
      isplitl [HB]; · iexists _; iexact HB
      isplitl [HN]; · iexists _; iexact HN
      isplitl [HM]; · iexists _; iexact HM
      iintro ⟨H0, H1, ⟨%e2, H2⟩, ⟨%eB, HB⟩, ⟨%eN, HN⟩, ⟨%eM, HM⟩⟩
      isplitl [HB HN HM Hg]
      · isplitl [HB HN HM]
        · isplitl [HB]; · (unfold owns; iexists _; isplitr; swap; (· iexact HB); ipureintro; exact View.read_writes_of_cover _ _ _ _ _ (coverFirstB c _ _ _ _ _ _ _ _ _ _ _ _ _ _ _ _ _ _ _ _))
          isplitl [HN]; · (unfold owns; iexists _; isplitr; swap; (· iexact HN); ipureintro; exact View.read_writes_of_cover _ _ _ _ _ (coverFirstN c _ _ _ _ _ _ _ _ _ _ _ _ _ _ _ _ _ _ _ _))
          (unfold owns; iexists _; isplitr; swap; (· iexact HM); ipureintro; exact View.read_writes_of_cover _ _ _ _ _ (coverFirstM c _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverFirst2 c _ _ _ _ _ _ _ _ _ _ _ _ _ _ _ _ _ _ _ _))
      iexists _; iexact H3
  · have hz : t.val ≠ 0 := fun h => h0 (by rw [h])
    by_cases h7 : t.val % 8 = 7
    · rw [show (dats m 0 c).leavesExact 3 t = owns (c : Thread nD τ) (ms3 t) fullShare ((dats m 0 c).after 3 t) from by
        unfold Dat.leavesExact; rw [liveAt3 t ((hcondLast t).mpr h7)], after3]
      rw [heldAt_last m c t h0 h7]
      (try dsimp only)
      unfold outLast2 outLast3 scLastM; (try dsimp only)
      rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runLast c (grid0.coords t) _ _ _ _ _ _ _ _ _ _ _ _ _ _ (fun h => h0 ((hcondFirst t).mp h)) ((hcondLater t).mpr h0) ((hcondLast t).mpr h7) (iblk m c 1 t) _ _ _).2.2.2 Set.univ _)
      isplitl [H1]; · iexact H1
      isplitl [H2]; · iexists _; iexact H2
      isplitl [H3]; · iexists _; iexact H3
      isplitl [HB]; · iexact HB
      isplitl [HN]; · iexact HN
      isplitl [HM]; · iexact HM
      iintro ⟨H1, ⟨%e2, H2⟩, ⟨%e3, H3⟩, HB, HN, ⟨%eM, HM⟩⟩
      isplitl [HB HN HM Hg]
      · isplitl [HB HN HM]
        · isplitl [HB]; · iexact HB
          isplitl [HN]; · iexact HN
          (unfold owns; iexists _; isplitr; swap; (· iexact HM); ipureintro; exact View.read_writes_of_cover _ _ _ _ _ (coverLastM c _ _ _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverLast2 c _ _ _ _ _ _ _ _ _ _ _ _ _ _ _ _ _ _ _ _ _ _))
      (unfold owns; iexists _; isplitr; swap; (· iexact H3); ipureintro; exact View.read_writes_of_cover _ _ _ _ _ (coverLast3 c _ _ _ _ _ _ _ _ _ _ _ _ _ _ _ _ _ _ _ _ _ _))
    · have hc4 : ¬condLast (grid0.coords t) := fun h => h7 ((hcondLast t).mp h)
      rw [Dat.leavesExact_idle (dats m 0 c) 3 t (idleAt3 t hc4) (noFlush3 t hc4)]
      rw [heldAt_middle m c t h0 h7]
      (try dsimp only)
      unfold outMiddle2 scMiddleM; (try dsimp only)
      rw [PhiS_castSucc m c t, PhiS_pos m c _ _ hz]
      iintro ⟨⟨⟨HB, HN, HM⟩, Hg⟩, Ho, ⟨%d0, H0⟩, ⟨%d1, H1⟩, ⟨%d2, H2⟩, ⟨%d3, H3⟩⟩
      iapply ((runMiddle c (grid0.coords t) _ _ _ _ _ _ _ _ _ _ _ _ _ _ (fun h => h0 ((hcondFirst t).mp h)) ((hcondLater t).mpr h0) (fun h => h7 ((hcondLast t).mp h)) (iblk m c 1 t) _ _ _).2.2 Set.univ _)
      isplitl [H1]; · iexact H1
      isplitl [H2]; · iexists _; iexact H2
      isplitl [HB]; · iexact HB
      isplitl [HN]; · iexact HN
      isplitl [HM]; · iexact HM
      iintro ⟨H1, ⟨%e2, H2⟩, HB, HN, ⟨%eM, HM⟩⟩
      isplitl [HB HN HM Hg]
      · isplitl [HB HN HM]
        · isplitl [HB]; · iexact HB
          isplitl [HN]; · iexact HN
          (unfold owns; iexists _; isplitr; swap; (· iexact HM); ipureintro; exact View.read_writes_of_cover _ _ _ _ _ (coverMiddleM c _ _ _ _ _ _ _ _ _ _ _ _ _ _ _ _ _ _ _ _ _ _))
        iexact Hg
      isplitl [Ho]; · iexact Ho
      isplitl [H0]; · iexact H0
      isplitl [H1]; · iexact H1
      isplitl [H2]; · (unfold owns; iexists _; isplitr; swap; (· iexact H2); ipureintro; exact View.read_writes_of_cover _ _ _ _ _ (coverMiddle2 c _ _ _ _ _ _ _ _ _ _ _ _ _ _ _ _ _ _ _ _ _ _))
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HB, HN, HM⟩, Hg⟩
  isplitl [HB HN HM]
  · isplitl [HB]; · iexists _; iexact HB
    isplitl [HN]; · iexists _; iexact HN
    iexists _; iexact HM
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, every array of the pipeline ending at what the proof data
    says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyIdeal.Pieces.lean ====
/-
  What each case of the body leaves in each buffer, as the stored terms of the blocks it read.
-/
import proofs.«162894_j44581760532793_2_alg».proof.Proof.BodyIdeal.Held
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-! Each buffer is stored once, whole, at a point; what it then holds is the stored term, and a load of a
    scratch buffer after its store within the point reads that term. -/

section
variable (c : Dev nD) (i : grid0.Coords) (arg2 : Memref sig .tc .vmem S1x4096x256 .f32) (harg2 : arg2.IsWhole) (arg3 : Memref sig .tc .vmem S1x512x256 .f32) (harg3 : arg3.IsWhole) (arg4 : Memref sig .tc .vmem S1x1x512 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x1 .f32) (harg7 : arg7.IsWhole) (arg8 : Memref sig .tc .vmem S4096x1 .f32) (harg8 : arg8.IsWhole)

theorem scFirstB_eq (hc1 : condFirst i) (hc3 : ¬condLater i) (hc4 : ¬condLast i) (x0 : Vec F S1x4096x256 .f32) (x1 : Vec F S1x512x256 .f32) :
    scFirstB c i arg2 harg2 arg3 harg3 arg4 harg4 arg5 harg5 arg6 harg6 arg7 harg7 arg8 harg8 hc1 hc3 hc4 x0 x1 = k0_pay3 x0 := by
  unfold scFirstB
  rw [View.read_writes_eq_canon _ _ _ (coverFirstB c i arg2 harg2 arg3 harg3 arg4 harg4 arg5 harg5 arg6 harg6 arg7 harg7 arg8 harg8 hc1 hc3 hc4 x0 x1)]
  unfold runFirst
  dsimp only
  sl_unfold_words
  rw [View.canon_unit_zero hz2]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem scFirstN_eq (hc1 : condFirst i) (hc3 : ¬condLater i) (hc4 : ¬condLast i) (x0 : Vec F S1x4096x256 .f32) (x1 : Vec F S1x512x256 .f32) :
    scFirstN c i arg2 harg2 arg3 harg3 arg4 harg4 arg5 harg5 arg6 harg6 arg7 harg7 arg8 harg8 hc1 hc3 hc4 x0 x1 = k0_pay4 x0 := by
  unfold scFirstN
  rw [View.read_writes_eq_canon _ _ _ (coverFirstN c i arg2 harg2 arg3 harg3 arg4 harg4 arg5 harg5 arg6 harg6 arg7 harg7 arg8 harg8 hc1 hc3 hc4 x0 x1)]
  unfold runFirst
  dsimp only
  sl_unfold_words
  rw [View.canon_unit_zero hz2]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem scFirstM_eq (hc1 : condFirst i) (hc3 : ¬condLater i) (hc4 : ¬condLast i) (x0 : Vec F S1x4096x256 .f32) (x1 : Vec F S1x512x256 .f32) :
    scFirstM c i arg2 harg2 arg3 harg3 arg4 harg4 arg5 harg5 arg6 harg6 arg7 harg7 arg8 harg8 hc1 hc3 hc4 x0 x1 = k0_pay8 x1 (k0_pay3 x0) (k0_pay4 x0) := by
  unfold scFirstM
  rw [View.read_writes_eq_canon _ _ _ (coverFirstM c i arg2 harg2 arg3 harg3 arg4 harg4 arg5 harg5 arg6 harg6 arg7 harg7 arg8 harg8 hc1 hc3 hc4 x0 x1)]
  unfold runFirst
  dsimp only
  sl_unfold_words
  rw [View.canon_unit_zero hz2]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem outFirst2_eq (hc1 : condFirst i) (hc3 : ¬condLater i) (hc4 : ¬condLast i) (x0 : Vec F S1x4096x256 .f32) (x1 : Vec F S1x512x256 .f32) :
    outFirst2 c i arg2 harg2 arg3 harg3 arg4 harg4 arg5 harg5 arg6 harg6 arg7 harg7 arg8 harg8 hc1 hc3 hc4 x0 x1 = k0_pay6 x1 (k0_pay3 x0) (k0_pay4 x0) := by
  unfold outFirst2
  rw [View.read_writes_eq_canon _ _ _ (coverFirst2 c i arg2 harg2 arg3 harg3 arg4 harg4 arg5 harg5 arg6 harg6 arg7 harg7 arg8 harg8 hc1 hc3 hc4 x0 x1)]
  unfold runFirst
  dsimp only
  sl_unfold_words
  rw [View.canon_unit_zero hz3]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem outMiddle2_eq (hc1 : ¬condFirst i) (hc3 : condLater i) (hc4 : ¬condLast i) (x1 : Vec F S1x512x256 .f32) (xb : Vec F S4096x256 .bf16) (xn : Vec F S4096x1 .f32) (xm : Vec F S4096x1 .f32) :
    outMiddle2 c i arg2 harg2 arg3 harg3 arg4 harg4 arg5 harg5 arg6 harg6 arg7 harg7 arg8 harg8 hc1 hc3 hc4 x1 xb xn xm = k0_pay6 x1 xb xn := by
  unfold outMiddle2
  rw [View.read_writes_eq_canon _ _ _ (coverMiddle2 c i arg2 harg2 arg3 harg3 arg4 harg4 arg5 harg5 arg6 harg6 arg7 harg7 arg8 harg8 hc1 hc3 hc4 x1 xb xn xm)]
  unfold runMiddle
  dsimp only
  sl_unfold_words
  rw [View.canon_unit_zero hz3]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem scMiddleM_eq (hc1 : ¬condFirst i) (hc3 : condLater i) (hc4 : ¬condLast i) (x1 : Vec F S1x512x256 .f32) (xb : Vec F S4096x256 .bf16) (xn : Vec F S4096x1 .f32) (xm : Vec F S4096x1 .f32) :
    scMiddleM c i arg2 harg2 arg3 harg3 arg4 harg4 arg5 harg5 arg6 harg6 arg7 harg7 arg8 harg8 hc1 hc3 hc4 x1 xb xn xm = k0_pay9 x1 xb xn xm := by
  unfold scMiddleM
  rw [View.read_writes_eq_canon _ _ _ (coverMiddleM c i arg2 harg2 arg3 harg3 arg4 harg4 arg5 harg5 arg6 harg6 arg7 harg7 arg8 harg8 hc1 hc3 hc4 x1 xb xn xm)]
  unfold runMiddle
  dsimp only
  sl_unfold_words
  rw [View.canon_unit_zero hz2]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem outLast2_eq (hc1 : ¬condFirst i) (hc3 : condLater i) (hc4 : condLast i) (x1 : Vec F S1x512x256 .f32) (xb : Vec F S4096x256 .bf16) (xn : Vec F S4096x1 .f32) (xm : Vec F S4096x1 .f32) :
    outLast2 c i arg2 harg2 arg3 harg3 arg4 harg4 arg5 harg5 arg6 harg6 arg7 harg7 arg8 harg8 hc1 hc3 hc4 x1 xb xn xm = k0_pay6 x1 xb xn := by
  unfold outLast2
  rw [View.read_writes_eq_canon _ _ _ (coverLast2 c i arg2 harg2 arg3 harg3 arg4 harg4 arg5 harg5 arg6 harg6 arg7 harg7 arg8 harg8 hc1 hc3 hc4 x1 xb xn xm)]
  unfold runLast
  dsimp only
  sl_unfold_words
  rw [View.canon_unit_zero hz3]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem scLastM_eq (hc1 : ¬condFirst i) (hc3 : condLater i) (hc4 : condLast i) (x1 : Vec F S1x512x256 .f32) (xb : Vec F S4096x256 .bf16) (xn : Vec F S4096x1 .f32) (xm : Vec F S4096x1 .f32) :
    scLastM c i arg2 harg2 arg3 harg3 arg4 harg4 arg5 harg5 arg6 harg6 arg7 harg7 arg8 harg8 hc1 hc3 hc4 x1 xb xn xm = k0_pay9 x1 xb xn xm := by
  unfold scLastM
  rw [View.read_writes_eq_canon _ _ _ (coverLastM c i arg2 harg2 arg3 harg3 arg4 harg4 arg5 harg5 arg6 harg6 arg7 harg7 arg8 harg8 hc1 hc3 hc4 x1 xb xn xm)]
  unfold runLast
  dsimp only
  sl_unfold_words
  rw [View.canon_unit_zero hz2]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

theorem outLast3_eq (hc1 : ¬condFirst i) (hc3 : condLater i) (hc4 : condLast i) (x1 : Vec F S1x512x256 .f32) (xb : Vec F S4096x256 .bf16) (xn : Vec F S4096x1 .f32) (xm : Vec F S4096x1 .f32) :
    outLast3 c i arg2 harg2 arg3 harg3 arg4 harg4 arg5 harg5 arg6 harg6 arg7 harg7 arg8 harg8 hc1 hc3 hc4 x1 xb xn xm = k0_pay1 (k0_pay9 x1 xb xn xm) := by
  unfold outLast3
  rw [View.read_writes_eq_canon _ _ _ (coverLast3 c i arg2 harg2 arg3 harg3 arg4 harg4 arg5 harg5 arg6 harg6 arg7 harg7 arg8 harg8 hc1 hc3 hc4 x1 xb xn xm)]
  unfold runLast
  dsimp only
  sl_unfold_words
  rw [View.canon_unit_zero hz3]
  simp only [View.readAt_eq_ld, harg2.read_unread, harg3.read_unread, harg6.read_unread, harg7.read_unread, harg8.read_unread, View.ld_unit_zero (S := S1x4096x256) hz3, View.ld_unit_zero (S := S1x512x256) hz3, View.ld_unit_zero (S := S4096x256) hz2, View.ld_unit_zero (S := S4096x1) hz2, View.readCov_unit_zero (S := S4096x256) _ hz2, View.readCov_unit_zero (S := S4096x1) _ hz2]

end

end Cert.KernelIdeal.Body

end
-- ==== Proof.Spec.lean ====
/-
  The quantity both programs compute, written once over the extended reals.

  Two families of 4096 points in dimension 256, eight independent pairs of families (the leading axis).
  For a pair b, point n of the first family and point m of the second, the squared distance is expanded as
  |x|² + |y|² − 2·⟨x, y⟩.  Every point of the second family is charged its distance to the nearest point of the
  first, every point of the first family its distance to the nearest point of the second, and the result is
  the sum of all these charges over the eight pairs.  The factor 2 and the starting value of every minimum
  (the word of +∞) are kept as the words both programs spell, so neither is ever evaluated.
-/
import Idealize.ShloMosaic.PureOps.Ideal.Laws
import Idealize.ShloMosaic.Lib.ValueIdx

noncomputable section

namespace Chamfer

open Idealize.ShloMosaic Idealize.ShloMosaic.ValueIdx

/-- Eight families of 4096 points in dimension 256, as an array of extended reals. -/
abbrev Cloud : Type := (⟨3, ![8, 4096, 256]⟩ : Shape).Idx → EReal

/-- The factor of the cross term, as both programs spell it. -/
def two : EReal := Ideal.ofBits .f32 0x40000000#32

/-- The value every minimum starts from, as both programs spell it. -/
def top : EReal := Ideal.ofBits .f32 0x7F800000#32

/-- The squared norm of point `n` of family `b`. -/
def sq (X : Cloud) (b : Fin 8) (n : Fin 4096) : EReal := ∑ d : Fin 256, X (ix3 b n d) * X (ix3 b n d)

/-- The inner product of point `n` of `X`'s family `b` with point `m` of `Y`'s. -/
def dot (X Y : Cloud) (b : Fin 8) (n m : Fin 4096) : EReal := ∑ d : Fin 256, X (ix3 b n d) * Y (ix3 b m d)

/-- The squared distance between the two points, expanded. -/
def dist (X Y : Cloud) (b : Fin 8) (n m : Fin 4096) : EReal := (sq X b n + sq Y b m) - two * dot X Y b n m

/-- The distance from point `m` of `Y` to the nearest point of `X`. -/
def nearX (X Y : Cloud) (b : Fin 8) (m : Fin 4096) : EReal :=
  (Finset.univ : Finset (Fin 4096)).fold min top (fun n => dist X Y b n m)

/-- The distance from point `n` of `X` to the nearest point of `Y`. -/
def nearY (X Y : Cloud) (b : Fin 8) (n : Fin 4096) : EReal :=
  (Finset.univ : Finset (Fin 4096)).fold min top (fun m => dist X Y b n m)

/-- The sum of all the charges. -/
def loss (X Y : Cloud) : EReal :=
  (∑ b : Fin 8, ∑ m : Fin 4096, nearX X Y b m) + (∑ b : Fin 8, ∑ n : Fin 4096, nearY X Y b n)

end Chamfer

end
-- ==== Proof.TileMath.lean ====
/-
  Joining tiles to whole axes: the second family's 4096 points swept as eight tiles of 512, a running minimum over the
  tiles, and sums re-indexed through the tiling.  Pure order and arithmetic over the extended reals.
-/
import proofs.«162894_j44581760532793_2_alg».proof.Proof.Spec

noncomputable section

namespace Chamfer

open Idealize.ShloMosaic Idealize.ShloMosaic.ValueIdx

/-- Point `q` of tile `j`: the point `512·j + q`. -/
def pos (j : Fin 8) (q : Fin 512) : Fin 4096 := ⟨512 * j.val + q.val, by omega⟩

theorem pos_val (j : Fin 8) (q : Fin 512) : (pos j q).val = 512 * j.val + q.val := rfl

/-- Every point lies in exactly one tile, at exactly one place. -/
def posEquiv : Fin 8 × Fin 512 ≃ Fin 4096 where
  toFun p := pos p.1 p.2
  invFun m := (⟨m.val / 512, by omega⟩, ⟨m.val % 512, by omega⟩)
  left_inv p := Prod.ext (Fin.ext (by show (512 * p.1.val + p.2.val) / 512 = p.1.val; omega))
    (Fin.ext (by show (512 * p.1.val + p.2.val) % 512 = p.2.val; omega))
  right_inv m := Fin.ext (by show 512 * (m.val / 512) + m.val % 512 = m.val; omega)

theorem posEquiv_apply (j : Fin 8) (q : Fin 512) : posEquiv (j, q) = pos j q := rfl

theorem pos_bijective : Function.Bijective (fun p : Fin 8 × Fin 512 => pos p.1 p.2) := posEquiv.bijective

/-- Every point is some place of some tile. -/
theorem exists_pos (m : Fin 4096) : ∃ (j : Fin 8) (q : Fin 512), pos j q = m :=
  ⟨(posEquiv.symm m).1, (posEquiv.symm m).2, posEquiv.apply_symm_apply m⟩

/-- The minimum over one tile, from the starting value `t`. -/
def tileMin (f : Fin 4096 → EReal) (t : EReal) (k : ℕ) : EReal :=
  if h : k < 8 then (Finset.univ : Finset (Fin 512)).fold min t (fun q => f (pos ⟨k, h⟩ q)) else t

theorem tileMin_of_lt (f : Fin 4096 → EReal) (t : EReal) (k : ℕ) (h : k < 8) :
    tileMin f t k = (Finset.univ : Finset (Fin 512)).fold min t (fun q => f (pos ⟨k, h⟩ q)) := dif_pos h

/-- The running minimum after tiles `0 … k`. -/
def runMin (f : Fin 4096 → EReal) (t : EReal) : ℕ → EReal
  | 0 => tileMin f t 0
  | k + 1 => min (runMin f t k) (tileMin f t (k + 1))

theorem runMin_zero (f : Fin 4096 → EReal) (t : EReal) :
    runMin f t 0 = (Finset.univ : Finset (Fin 512)).fold min t (fun q => f (pos 0 q)) :=
  tileMin_of_lt f t 0 (by omega)

theorem runMin_succ (f : Fin 4096 → EReal) (t : EReal) (k : ℕ) (h : k + 1 < 8) :
    runMin f t (k + 1)
      = min (runMin f t k) ((Finset.univ : Finset (Fin 512)).fold min t (fun q => f (pos ⟨k + 1, h⟩ q))) := by
  rw [← tileMin_of_lt f t (k + 1) h]; rfl

/-- A bound is below a tile's minimum exactly when it is below the starting value and every point of the tile. -/
theorem le_tileMin_iff (f : Fin 4096 → EReal) (t c : EReal) (k : ℕ) (h : k < 8) :
    c ≤ tileMin f t k ↔ c ≤ t ∧ ∀ q : Fin 512, c ≤ f (pos ⟨k, h⟩ q) := by
  rw [tileMin_of_lt f t k h, Finset.le_fold_min]
  exact and_congr_right fun _ => ⟨fun H q => H q (Finset.mem_univ q), fun H q _ => H q⟩

/-- A bound is below the running minimum after tiles `0 … k` exactly when it is below the starting value and every point
    of those tiles. -/
theorem le_runMin_iff (f : Fin 4096 → EReal) (t c : EReal) : ∀ k : ℕ, k < 8 →
    (c ≤ runMin f t k ↔ c ≤ t ∧ ∀ j : Fin 8, j.val ≤ k → ∀ q : Fin 512, c ≤ f (pos j q))
  | 0, h => by
    show c ≤ tileMin f t 0 ↔ _
    rw [le_tileMin_iff f t c 0 h]
    refine and_congr_right fun _ => ⟨fun H j hj q => ?_, fun H q => H ⟨0, h⟩ (Nat.le_refl 0) q⟩
    have : j = ⟨0, h⟩ := Fin.ext (by show j.val = 0; omega)
    rw [this]; exact H q
  | k + 1, h => by
    show c ≤ min (runMin f t k) (tileMin f t (k + 1)) ↔ _
    rw [le_min_iff, le_runMin_iff f t c k (by omega), le_tileMin_iff f t c (k + 1) h]
    constructor
    · rintro ⟨⟨ht, H1⟩, _, H2⟩
      refine ⟨ht, fun j hj q => ?_⟩
      by_cases hjk : j.val ≤ k
      · exact H1 j hjk q
      · have : j = ⟨k + 1, h⟩ := Fin.ext (by show j.val = k + 1; omega)
        rw [this]; exact H2 q
    · rintro ⟨ht, H⟩
      exact ⟨⟨ht, fun j hj q => H j (by omega) q⟩, ht, fun q => H ⟨k + 1, h⟩ (Nat.le_refl _) q⟩

/-- After the last tile the running minimum is the minimum over all the points. -/
theorem runMin_seven (f : Fin 4096 → EReal) (t : EReal) :
    runMin f t 7 = (Finset.univ : Finset (Fin 4096)).fold min t f := by
  refine eq_of_forall_le_iff fun c => ?_
  rw [le_runMin_iff f t c 7 (by omega), Finset.le_fold_min]
  refine and_congr_right fun _ => ⟨fun H m _ => ?_, fun H j _ q => H (pos j q) (Finset.mem_univ _)⟩
  obtain ⟨j, q, rfl⟩ := exists_pos m
  exact H j (by omega) q

/-- A sum over the points, tile by tile. -/
theorem sum_pos (g : Fin 4096 → EReal) : ∑ m : Fin 4096, g m = ∑ j : Fin 8, ∑ q : Fin 512, g (pos j q) := by
  rw [← Equiv.sum_comp posEquiv g, Fintype.sum_prod_type]
  rfl

/-- An index of an `8 × 1 × 4096` array is its first and last coordinates. -/
def idxEquiv_8_1_4096 : (⟨3, ![8, 1, 4096]⟩ : Shape).Idx ≃ Fin 8 × Fin 4096 where
  toFun i := (i 0, i 2)
  invFun p := ix3 p.1 0 p.2
  left_inv i := by
    funext a
    match a with
    | ⟨0, _⟩ => rfl
    | ⟨1, h⟩ =>
      have h1 : (i ⟨1, h⟩).val < 1 := (i ⟨1, h⟩).isLt
      exact Fin.ext (by show 0 = (i ⟨1, h⟩).val; omega)
    | ⟨2, _⟩ => rfl
  right_inv _ := rfl

/-- A sum over an `8 × 1 × 4096` array, by its first and last coordinates. -/
theorem sum_idx_8_1_4096 (h : (⟨3, ![8, 1, 4096]⟩ : Shape).Idx → EReal) :
    ∑ i, h i = ∑ b : Fin 8, ∑ m : Fin 4096, h (ix3 b 0 m) := by
  rw [← Equiv.sum_comp idxEquiv_8_1_4096.symm h, Fintype.sum_prod_type]
  rfl

end Chamfer

end
-- ==== Proof.BodyIdeal.Blocks.lean ====
/-
  The grid's points as family and tile, and the two input blocks at a point as rows of the argument arrays.
-/
import proofs.«162894_j44581760532793_2_alg».proof.Proof.BodyIdeal.Held
import proofs.«162894_j44581760532793_2_alg».proof.Proof.TileMath
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The grid's points: family and tile -/

/-- The family a grid point works on, and its tile. -/
def fam (t : Fin cfg0.N) : Fin 8 := ⟨t.val / 8, by have h : t.val < cfg0.N := t.isLt; have hN : cfg0.N = 64 := N_0; omega⟩
def tile (t : Fin cfg0.N) : Fin 8 := ⟨t.val % 8, Nat.mod_lt _ (by norm_num)⟩

theorem fam_val (t : Fin cfg0.N) : (fam t).val = t.val / 8 := rfl
theorem tile_val (t : Fin cfg0.N) : (tile t).val = t.val % 8 := rfl

/-- The printed index maps, decided once over the grid: every window's block index on its first axis is the
    family, the second family's and the first output's block index on the tiled axis is the tile, every other is zero. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = 0 ∧ win0_3.index t (2 : Fin 3) = 0) :=
  (by decide +kernel : ∀ t : Fin grid0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = 0 ∧ win0_3.index t (2 : Fin 3) = 0))

/-! ## The input blocks -/

/-- The first family's block at point `t` is family `t / 8` of the first argument. -/
theorem iblk0_apply (c : Dev nD) (t : Fin cfg0.N) (n : Fin 4096) (d : Fin 256) :
    (iblk m c 0 t : Vec Ideal S1x4096x256 .f32) (ix3 (0 : Fin 1) n d)
      = (V m c main_arg0 : S8x4096x256.Idx → EReal) (ix3 (fam t) n d) := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 8; omega
  | ⟨1, _⟩ => show win0_0.index t (1 : Fin 3) * 4096 + 1 * n.val = n.val; omega
  | ⟨2, _⟩ => show win0_0.index t (2 : Fin 3) * 256 + 1 * d.val = d.val; omega

/-- The second family's block at point `t` is tile `t mod 8` of family `t / 8` of the second argument. -/
theorem iblk1_apply (c : Dev nD) (t : Fin cfg0.N) (q : Fin 512) (d : Fin 256) :
    (iblk m c 1 t : Vec Ideal S1x512x256 .f32) (ix3 (0 : Fin 1) q d)
      = (V m c main_arg1 : S8x4096x256.Idx → EReal) (ix3 (fam t) (Chamfer.pos (tile t) q) d) := by
  obtain ⟨-, ⟨e0, e1, e2⟩, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val / 8; omega
  | ⟨1, _⟩ => show win0_1.index t (1 : Fin 3) * 512 + 1 * q.val = 512 * (t.val % 8) + q.val; omega
  | ⟨2, _⟩ => show win0_1.index t (2 : Fin 3) * 256 + 1 * d.val = d.val; omega

end Cert.KernelIdeal.Body

end
-- ==== Proof.PayloadIdeal.lean ====
/-
  The kernel body's pure values read at an index, over the extended reals.

  Each value the body stores is a short term over shape casts, a format change, pointwise arithmetic, three kinds of
  reduction (a row sum, a minimum down the columns, a minimum along the rows) and one matrix product that contracts
  the last axis of both operands.  Read at an index, with every operation exact and the format change the identity:
  the stored copy of a block is the block; its row sums of squares are the squared norms of its points; the
  distance tile at (n, q) is |x_n|² + |y_q|² − 2·⟨x_n, y_q⟩ with the first norm read from the column of norms kept
  from the first step; the two minima are folds of `min` from the word of +∞ over one coordinate of that tile; and
  the running minimum is the minimum of what was kept and the tile's row minimum.
-/
import proofs.«162894_j44581760532793_2_alg».proof.Proof.Gen.KernelIdeal.Skeleton
import proofs.«162894_j44581760532793_2_alg».proof.Proof.Spec
import Idealize.ShloMosaic.Lib.ValueLayout

noncomputable section

namespace Cert.KernelIdeal.PayloadIdeal

open Idealize.ShloMosaic Idealize.ShloMosaic.ValueIdx
open Cert.KernelIdeal Cert.KernelIdeal.Gen Cert.KernelIdeal.Facts₀

/-! ## Layout operations on a column of values, read at an index -/

section Layout
variable {α : Type}

/-- An `[a]` array cast to the column `[a, 1]` reads, at `(i, z)`, the operand at `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum over one axis -/

/-- A float `vector.multi_reduction <minimumf>` over one axis, read over the extended reals: the fold of `min` from
    the accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## Reductions of a matrix over one of its two axes -/

section Reductions
variable {φ : FTy} {a b : ℕ}

/-- Over a matrix's rows (axis 1 dropped), the source index over row `i` with column `k` inserted is `(i, k)`. -/
theorem lift_axis1 (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

/-- Down a matrix's columns (axis 0 dropped), the source index over column `k` with row `i` inserted is `(i, k)`. -/
theorem lift_axis0 (h : (⟨2, ![a, b]⟩ : Shape).Reduces [0] ⟨1, ![b]⟩) (k : Fin b) (i : Fin a) :
    h.lift (ix1 k) i = ix2 i k :=
  funext fun c => Fin.ext (by match c with | ⟨0, _⟩ => rfl | ⟨1, _⟩ => rfl)

/-- A row sum: the sum over the columns. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_axis1 h i k))

/-- A row minimum: the fold of `min` from the accumulator's value over the columns. -/
theorem rowMin_apply (src : FVec Ideal ⟨2, ![a, b]⟩ φ) (acc : BitVec φ.bits)
    (h : (⟨2, ![a, b]⟩ : Shape).Reduces [1] ⟨1, ![a]⟩) (hφ : FKind.Formats φ)
    (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) :=
  (multiReduction_minimumf_single src acc h hφ hacc (ix1 i)).trans
    (congrArg (fun f => Finset.fold min (Ideal.ofBits φ acc) f Finset.univ)
      (funext fun k => congrArg src (lift_axis1 h i k)))

/-- A column minimum: the fold of `min` from the accumulator's value over the rows. -/
theorem colMin_apply (src : FVec Ideal ⟨2, ![a, b]⟩ φ) (acc : BitVec φ.bits)
    (h : (⟨2, ![a, b]⟩ : Shape).Reduces [0] ⟨1, ![b]⟩) (hφ : FKind.Formats φ)
    (hacc : acc = FKind.minimumf.neutral φ hφ) (k : Fin b) :
    multiReduction .minimumf [0] ⟨1, ![b]⟩ src acc h hφ hacc (ix1 k)
      = (Finset.univ : Finset (Fin a)).fold min (Ideal.ofBits φ acc) (fun i => src (ix2 i k)) :=
  (multiReduction_minimumf_single src acc h hφ hacc (ix1 k)).trans
    (congrArg (fun f => Finset.fold min (Ideal.ofBits φ acc) f Finset.univ)
      (funext fun i => congrArg src (lift_axis0 h k i)))

end Reductions

/-! ## The stored copy of a block, and its squared norms -/

/-- The copy of the first family's block kept for the matrix product is the block. -/
theorem pay3_apply (x0 : Vec Ideal S1x4096x256 .f32) (n : Fin 4096) (d : Fin 256) :
    k0_pay3 (F := Ideal) x0 (ix2 n d) = x0 (ix3 0 n d) := by
  unfold k0_pay3 k0_pay2
  rw [shapeCast_self]
  exact shapeCast_1ab_ab_apply x0 _ n d

/-- The row sums of squares of the block: the squared norm of each point. -/
theorem pay4_apply (x0 : Vec Ideal S1x4096x256 .f32) (n : Fin 4096) (z : Fin 1) :
    k0_pay4 (F := Ideal) x0 (ix2 n z) = ∑ d : Fin 256, x0 (ix3 0 n d) * x0 (ix3 0 n d) := by
  unfold k0_pay4 k0_pay2
  rw [shapeCast_self]
  refine (shapeCast_a_a1_apply _ _ n z).trans ?_
  refine (rowSum_apply (a := 4096) (b := 256) _ _ _ _ _ n).trans ?_
  refine Finset.sum_congr rfl fun d _ => ?_
  rw [mulf_apply, shapeCast_1ab_ab_apply]

/-! ## The matrix product: both operands contracted along their last axis -/

/-- The left operand's row is the result's row … -/
theorem lhsIdx_0 (j : S4096x512.Idx) (k : dot_S4096x256_S512x256_S4096x512_1_1_0_0_n_n.contr.Idx) :
    (dot_S4096x256_S512x256_S4096x512_1_1_0_0_n_n.lhsIdx j k 0).val = (j 0).val := by
  unfold DotDims.lhsIdx
  rw [dif_neg (show ¬(0 : Fin S4096x256.rank) ∈ dot_S4096x256_S512x256_S4096x512_1_1_0_0_n_n.lhsBatch by decide),
    dif_pos (show (0 : Fin S4096x256.rank) ∈ dot_S4096x256_S512x256_S4096x512_1_1_0_0_n_n.lhsNonContracting by decide)]
  rfl

/-- … and its column the contraction position. -/
theorem lhsIdx_1 (j : S4096x512.Idx) (k : dot_S4096x256_S512x256_S4096x512_1_1_0_0_n_n.contr.Idx) :
    (dot_S4096x256_S512x256_S4096x512_1_1_0_0_n_n.lhsIdx j k 1).val = (k ⟨0, by decide⟩).val :=
  dot_S4096x256_S512x256_S4096x512_1_1_0_0_n_n.lhsIdx_val_of_single rfl j k

/-- The right operand's row is the result's column … -/
theorem rhsIdx_0 (j : S4096x512.Idx) (k : dot_S4096x256_S512x256_S4096x512_1_1_0_0_n_n.contr.Idx) :
    (dot_S4096x256_S512x256_S4096x512_1_1_0_0_n_n.rhsIdx j k 0).val = (j 1).val := by
  unfold DotDims.rhsIdx
  rw [dif_neg (show ¬(0 : Fin S512x256.rank) ∈ dot_S4096x256_S512x256_S4096x512_1_1_0_0_n_n.rhsBatch by decide),
    dif_pos (show (0 : Fin S512x256.rank) ∈ dot_S4096x256_S512x256_S4096x512_1_1_0_0_n_n.rhsNonContracting by decide)]
  rfl

/-- … and its column the contraction position. -/
theorem rhsIdx_1 (j : S4096x512.Idx) (k : dot_S4096x256_S512x256_S4096x512_1_1_0_0_n_n.contr.Idx) :
    (dot_S4096x256_S512x256_S4096x512_1_1_0_0_n_n.rhsIdx j k 1).val = (k ⟨0, by decide⟩).val :=
  dot_S4096x256_S512x256_S4096x512_1_1_0_0_n_n.rhsIdx_val_of_single rfl j k

/-- The product into a zero accumulator, at `(n, q)`: the inner product of row `n` of the left operand with row `q`
    of the right one. -/
theorem matmul_tile_apply (xb : FVec Ideal S4096x256 .bf16) (y : FVec Ideal S512x256 .bf16) (n : Fin 4096) (q : Fin 512) :
    matmul dot_S4096x256_S512x256_S4096x512_1_1_0_0_n_n none xb y (constant (F := Ideal) S4096x512 .f32 0x00000000#32) (ix2 n q)
      = ∑ d : Fin 256, xb (ix2 n d) * y (ix2 q d) := by
  simp only [matmul]
  rw [Ideal.matmul_constant_zero_apply,
    ← Equiv.sum_comp (contrEquiv1 dot_S4096x256_S512x256_S4096x512_1_1_0_0_n_n 256 rfl rfl).symm]
  refine Finset.sum_congr rfl fun k _ => ?_
  have hk := contrEquiv1_symm_val dot_S4096x256_S512x256_S4096x512_1_1_0_0_n_n 256 rfl rfl k
  have el : dot_S4096x256_S512x256_S4096x512_1_1_0_0_n_n.lhsIdx (ix2 n q) ((contrEquiv1 dot_S4096x256_S512x256_S4096x512_1_1_0_0_n_n 256 rfl rfl).symm k) = ix2 n k :=
    funext fun a => Fin.ext (by
      match a with
      | ⟨0, _⟩ => exact lhsIdx_0 _ _
      | ⟨1, _⟩ => exact (lhsIdx_1 _ _).trans hk)
  have er : dot_S4096x256_S512x256_S4096x512_1_1_0_0_n_n.rhsIdx (ix2 n q) ((contrEquiv1 dot_S4096x256_S512x256_S4096x512_1_1_0_0_n_n 256 rfl rfl).symm k) = ix2 q k :=
    funext fun a => Fin.ext (by
      match a with
      | ⟨0, _⟩ => exact rhsIdx_0 _ _
      | ⟨1, _⟩ => exact (rhsIdx_1 _ _).trans hk)
  rw [el, er]

/-! ## The distance tile -/

/-- The tile of squared distances, expanded: the kept squared norm of point `n` of the first family, plus the squared
    norm of point `q` of the second family's tile, minus twice their inner product. -/
theorem pay5_apply (x1 : Vec Ideal S1x512x256 .f32) (xb : Vec Ideal S4096x256 .bf16) (xx : Vec Ideal S4096x1 .f32)
    (n : Fin 4096) (q : Fin 512) :
    k0_pay5 (F := Ideal) x1 xb xx (ix2 n q)
      = (xx (ix2 n 0) + ∑ d : Fin 256, x1 (ix3 0 q d) * x1 (ix3 0 q d))
        - Chamfer.two * ∑ d : Fin 256, xb (ix2 n d) * x1 (ix3 0 q d) := by
  unfold k0_pay5
  dsimp only
  rw [subf_apply, addf_apply, mulf_apply]
  refine congrArg₂ (· - ·) (congrArg₂ (· + ·) ?_ ?_) (congrArg₂ (· * ·) ?_ ?_)
  · exact broadcastTo_a1_ab_apply xx _ n q
  · refine (broadcastTo_1b_ab_apply _ _ n q).trans ?_
    refine (transpose_ix2_apply _ _ (0 : Fin 1) q).trans ?_
    refine (shapeCast_a_a1_apply _ _ q 0).trans ?_
    refine (rowSum_apply (a := 512) (b := 256) _ _ _ _ _ q).trans ?_
    refine Finset.sum_congr rfl fun d _ => ?_
    rw [mulf_apply, shapeCast_1ab_ab_apply]
  · rfl
  · refine (matmul_tile_apply xb _ n q).trans ?_
    refine Finset.sum_congr rfl fun d _ => ?_
    rw [truncf_apply, shapeCast_1ab_ab_apply]

/-! ## The two minima of the tile, and the running minimum -/

/-- Down each column of the tile: the nearest point of the first family's block to point `q` of the tile. -/
theorem pay6_apply (x1 : Vec Ideal S1x512x256 .f32) (xb : Vec Ideal S4096x256 .bf16) (xx : Vec Ideal S4096x1 .f32)
    (q : Fin 512) :
    k0_pay6 (F := Ideal) x1 xb xx (ix3 0 0 q)
      = (Finset.univ : Finset (Fin 4096)).fold min Chamfer.top
          (fun n => k0_pay5 (F := Ideal) x1 xb xx (ix2 n q)) := by
  unfold k0_pay6 Chamfer.top
  refine (shapeCast_a_11a_apply _ _ 0 0 q).trans ?_
  exact colMin_apply (a := 4096) (b := 512) _ _ _ _ _ q

/-- Along each row of the tile: the nearest point of the tile to point `n` of the first family's block. -/
theorem pay7_apply (x1 : Vec Ideal S1x512x256 .f32) (xb : Vec Ideal S4096x256 .bf16) (xx : Vec Ideal S4096x1 .f32)
    (n : Fin 4096) (z : Fin 1) :
    k0_pay7 (F := Ideal) x1 xb xx (ix2 n z)
      = (Finset.univ : Finset (Fin 512)).fold min Chamfer.top
          (fun q => k0_pay5 (F := Ideal) x1 xb xx (ix2 n q)) := by
  unfold k0_pay7 Chamfer.top
  refine (shapeCast_a_a1_apply _ _ n z).trans ?_
  exact rowMin_apply (a := 4096) (b := 512) _ _ _ _ _ n

/-- The first tile's row minima are stored as they are. -/
theorem pay8_apply (x1 : Vec Ideal S1x512x256 .f32) (xb : Vec Ideal S4096x256 .bf16) (xx : Vec Ideal S4096x1 .f32)
    (n : Fin 4096) (z : Fin 1) :
    k0_pay8 (F := Ideal) x1 xb xx (ix2 n z) = k0_pay7 (F := Ideal) x1 xb xx (ix2 n z) := by
  unfold k0_pay8
  rw [shapeCast_self]

/-- A later tile's row minima are folded into what was kept. -/
theorem pay9_apply (x1 : Vec Ideal S1x512x256 .f32) (xb : Vec Ideal S4096x256 .bf16) (xx : Vec Ideal S4096x1 .f32)
    (acc : Vec Ideal S4096x1 .f32) (n : Fin 4096) (z : Fin 1) :
    k0_pay9 (F := Ideal) x1 xb xx acc (ix2 n z)
      = min (acc (ix2 n z)) (k0_pay7 (F := Ideal) x1 xb xx (ix2 n z)) := by
  unfold k0_pay9
  rw [shapeCast_self, minimumf_apply]

/-- The column of row minima laid out as a row of the output. -/
theorem pay1_apply (acc : Vec Ideal S4096x1 .f32) (n : Fin 4096) :
    k0_pay1 (F := Ideal) acc (ix3 0 0 n) = acc (ix2 n 0) := by
  unfold k0_pay1
  refine (shapeCast_ab_1ab_apply _ _ 0 0 n).trans ?_
  exact transpose_ix2_apply acc _ (0 : Fin 1) n

end Cert.KernelIdeal.PayloadIdeal

end
-- ==== Proof.BodyIdeal.Invariant.lean ====
/-
  The running state of the kernel, point by point, at the ideal instance.

  Point t = 8·b + j works on family b and tile j.  After it, the first scratch holds family b's block of the first
  array, the second its squared norms, the third the running minimum over the tiles 0..j of the distances from each
  point of the block to the points of those tiles; the first output holds, for each point of tile j, its distance to
  the nearest point of the block; and at j = 7 the second output holds the running minima, which are then the
  minima over the whole second family.
-/
import proofs.«162894_j44581760532793_2_alg».proof.Proof.BodyIdeal.Pieces
import proofs.«162894_j44581760532793_2_alg».proof.Proof.BodyIdeal.Blocks
import proofs.«162894_j44581760532793_2_alg».proof.Proof.PayloadIdeal
import proofs.«162894_j44581760532793_2_alg».proof.Proof.TileMath

set_option maxRecDepth 16384

noncomputable section

namespace Cert.KernelIdeal.Body

open Cert.KernelIdeal Cert.KernelIdeal.Gen Cert.KernelIdeal.PayloadIdeal
open Idealize.ShloMosaic Idealize.ShloMosaic.TcCoe Idealize.ShloMosaic.ValueIdx
open Idealize.SL.Sem
open Chamfer

/-! ## One tile's arithmetic, over any blocks that hold what they should -/

section Tile
variable (X Y : Cloud) (b j : Fin 8)
  (x1 : Vec Ideal S1x512x256 .f32) (xb : Vec Ideal S4096x256 .bf16) (xn : Vec Ideal S4096x1 .f32)
  (hB : ∀ (n : Fin 4096) (d : Fin 256), xb (ix2 n d) = X (ix3 b n d))
  (hN : ∀ n : Fin 4096, xn (ix2 n 0) = Chamfer.sq X b n)
  (h1 : ∀ (q : Fin 512) (d : Fin 256), x1 (ix3 0 q d) = Y (ix3 b (pos j q) d))
include hB hN h1

/-- The tile's table of distances. -/
theorem tile_dist (n : Fin 4096) (q : Fin 512) : k0_pay5 (F := Ideal) x1 xb xn (ix2 n q) = dist X Y b n (pos j q) := by
  rw [pay5_apply, hN]
  simp only [hB, h1]
  rfl

/-- Its column minima: each point of the tile against the whole block. -/
theorem tile_nearX (q : Fin 512) : k0_pay6 (F := Ideal) x1 xb xn (ix3 0 0 q) = nearX X Y b (pos j q) := by
  rw [pay6_apply]
  unfold nearX
  congr 1
  funext n
  exact tile_dist X Y b j x1 xb xn hB hN h1 n q

/-- Its row minima: each point of the block against the tile. -/
theorem tile_rowMin (n : Fin 4096) (z : Fin 1) :
    k0_pay7 (F := Ideal) x1 xb xn (ix2 n z) = (Finset.univ : Finset (Fin 512)).fold min top (fun q => dist X Y b n (pos j q)) := by
  rw [pay7_apply]
  congr 1
  funext q
  exact tile_dist X Y b j x1 xb xn hB hN h1 n q

end Tile

/-! ## The invariant -/

variable (m : (ℓ : Loc nD τ sig) → Buf (Elt Ideal) ℓ) (c : Dev nD)

/-- The two argument arrays as the region finds them. -/
abbrev argX : Cloud := V m c main_arg0
abbrev argY : Cloud := V m c main_arg1

/-- What the buffers hold after point `t`. -/
structure Good (t : Fin cfg0.N) : Prop where
  sB : ∀ (n : Fin 4096) (d : Fin 256), (heldAt m c t.val t.isLt).sB (ix2 n d) = argX m c (ix3 (fam t) n d)
  sN : ∀ (n : Fin 4096) (z : Fin 1), (heldAt m c t.val t.isLt).sN (ix2 n z) = Chamfer.sq (argX m c) (fam t) n
  sM : ∀ (n : Fin 4096) (z : Fin 1), (heldAt m c t.val t.isLt).sM (ix2 n z) = runMin (fun mm => dist (argX m c) (argY m c) (fam t) n mm) top (t.val % 8)
  o2 : ∀ q : Fin 512, (heldAt m c t.val t.isLt).o2 (ix3 0 0 q) = nearX (argX m c) (argY m c) (fam t) (pos (tile t) q)
  o3 : t.val % 8 = 7 → ∀ n : Fin 4096, (heldAt m c t.val t.isLt).o3 (ix3 0 0 n) = nearY (argX m c) (argY m c) (fam t) n

theorem good_of (t : Fin cfg0.N) (H : Held Ideal) (e : heldAt m c t.val t.isLt = H)
    (hsB : ∀ (n : Fin 4096) (d : Fin 256), H.sB (ix2 n d) = argX m c (ix3 (fam t) n d))
    (hsN : ∀ (n : Fin 4096) (z : Fin 1), H.sN (ix2 n z) = Chamfer.sq (argX m c) (fam t) n)
    (hsM : ∀ (n : Fin 4096) (z : Fin 1), H.sM (ix2 n z) = runMin (fun mm => dist (argX m c) (argY m c) (fam t) n mm) top (t.val % 8))
    (ho2 : ∀ q : Fin 512, H.o2 (ix3 0 0 q) = nearX (argX m c) (argY m c) (fam t) (pos (tile t) q))
    (ho3 : t.val % 8 = 7 → ∀ n : Fin 4096, H.o3 (ix3 0 0 n) = nearY (argX m c) (argY m c) (fam t) n) : Good m c t := by
  subst e; exact ⟨hsB, hsN, hsM, ho2, ho3⟩

theorem z_eq_zero (z : Fin 1) : z = 0 := Subsingleton.elim _ _

/-- At a family's first tile the scratch is written afresh from the family's block. -/
theorem good_first (t : Fin cfg0.N) (h0 : t.val % 8 = 0) : Good m c t := by
  have hB : ∀ (n : Fin 4096) (d : Fin 256), k0_pay3 (F := Ideal) (iblk m c 0 t) (ix2 n d) = argX m c (ix3 (fam t) n d) := fun n d => by
    rw [pay3_apply]; exact iblk0_apply m c t n d
  have hN : ∀ (n : Fin 4096), k0_pay4 (F := Ideal) (iblk m c 0 t) (ix2 n 0) = Chamfer.sq (argX m c) (fam t) n := fun n => by
    rw [pay4_apply]; unfold Chamfer.sq; simp only [iblk0_apply m c t]
  have h1 : ∀ (q : Fin 512) (d : Fin 256), iblk m c 1 t (ix3 0 q d) = argY m c (ix3 (fam t) (pos (tile t) q) d) := fun q d => iblk1_apply m c t q d
  have htile : tile t = 0 := Fin.ext (by show t.val % 8 = 0; exact h0)
  refine good_of m c t _ (heldAt_first m c t h0) ?_ ?_ ?_ ?_ ?_
  · dsimp only; rw [scFirstB_eq]; exact hB
  · dsimp only; rw [scFirstN_eq]; intro n z; rw [z_eq_zero z]; exact hN n
  · dsimp only; rw [scFirstM_eq]; intro n z
    rw [pay8_apply, tile_rowMin (argX m c) (argY m c) (fam t) (tile t) _ _ _ hB hN h1 n z, h0, runMin_zero, htile]
  · dsimp only; rw [outFirst2_eq]; intro q
    exact tile_nearX (argX m c) (argY m c) (fam t) (tile t) _ _ _ hB hN h1 q
  · intro h7; omega

/-- The point before a later tile works on the same family, one tile earlier. -/
theorem fam_pred (t : Fin cfg0.N) (h0 : ¬t.val % 8 = 0) :
    fam (⟨t.val - 1, Nat.lt_of_le_of_lt (Nat.sub_le _ _) t.isLt⟩ : Fin cfg0.N) = fam t := by
  apply Fin.ext; show (t.val - 1) / 8 = t.val / 8; omega

/-- At a later tile the block and its norms are kept and the running minima folded with the tile's. -/
theorem good_later (t : Fin cfg0.N) (h0 : ¬t.val % 8 = 0)
    (ih : Good m c (⟨t.val - 1, Nat.lt_of_le_of_lt (Nat.sub_le _ _) t.isLt⟩ : Fin cfg0.N)) : Good m c t := by
  obtain ⟨k, hk⟩ : ∃ k, t.val % 8 = k + 1 := ⟨t.val % 8 - 1, by omega⟩
  have hk8 : k + 1 < 8 := by have := Nat.mod_lt t.val (show 0 < 8 by norm_num); omega
  have hpk : (t.val - 1) % 8 = k := by omega
  have hB : ∀ (n : Fin 4096) (d : Fin 256), (heldAt m c (t.val - 1) (Nat.lt_of_le_of_lt (Nat.sub_le _ _) t.isLt)).sB (ix2 n d) = argX m c (ix3 (fam t) n d) := fun n d => by
    rw [← fam_pred t h0]; exact ih.sB n d
  have hN : ∀ (n : Fin 4096), (heldAt m c (t.val - 1) (Nat.lt_of_le_of_lt (Nat.sub_le _ _) t.isLt)).sN (ix2 n 0) = Chamfer.sq (argX m c) (fam t) n := fun n => by
    rw [← fam_pred t h0]; exact ih.sN n 0
  have hM : ∀ (n : Fin 4096) (z : Fin 1), (heldAt m c (t.val - 1) (Nat.lt_of_le_of_lt (Nat.sub_le _ _) t.isLt)).sM (ix2 n z) = runMin (fun mm => dist (argX m c) (argY m c) (fam t) n mm) top k := fun n z => by
    have := ih.sM n z
    rw [fam_pred t h0] at this
    rw [this]; show runMin _ top ((t.val - 1) % 8) = _; rw [hpk]
  have h1 : ∀ (q : Fin 512) (d : Fin 256), iblk m c 1 t (ix3 0 q d) = argY m c (ix3 (fam t) (pos (tile t) q) d) := fun q d => iblk1_apply m c t q d
  have htile : tile t = ⟨k + 1, hk8⟩ := Fin.ext (by show t.val % 8 = k + 1; exact hk)
  have hfold : ∀ (n : Fin 4096) (z : Fin 1),
      k0_pay9 (F := Ideal) (iblk m c 1 t) (heldAt m c (t.val - 1) (Nat.lt_of_le_of_lt (Nat.sub_le _ _) t.isLt)).sB (heldAt m c (t.val - 1) (Nat.lt_of_le_of_lt (Nat.sub_le _ _) t.isLt)).sN (heldAt m c (t.val - 1) (Nat.lt_of_le_of_lt (Nat.sub_le _ _) t.isLt)).sM (ix2 n z)
        = runMin (fun mm => dist (argX m c) (argY m c) (fam t) n mm) top (t.val % 8) := fun n z => by
    rw [pay9_apply, hM n z, tile_rowMin (argX m c) (argY m c) (fam t) (tile t) _ _ _ hB hN h1 n z, hk, runMin_succ _ _ k hk8, htile]
  by_cases h7 : t.val % 8 = 7
  · refine good_of m c t _ (heldAt_last m c t h0 h7) ?_ ?_ ?_ ?_ ?_
    · dsimp only; exact hB
    · dsimp only; intro n z; rw [z_eq_zero z]; exact hN n
    · dsimp only; rw [scLastM_eq]; exact hfold
    · dsimp only; rw [outLast2_eq]; intro q
      exact tile_nearX (argX m c) (argY m c) (fam t) (tile t) _ _ _ hB hN h1 q
    · intro _ n; dsimp only; rw [outLast3_eq, pay1_apply, hfold n 0, h7, runMin_seven]; rfl
  · refine good_of m c t _ (heldAt_middle m c t h0 h7) ?_ ?_ ?_ ?_ ?_
    · dsimp only; exact hB
    · dsimp only; intro n z; rw [z_eq_zero z]; exact hN n
    · dsimp only; rw [scMiddleM_eq]; exact hfold
    · dsimp only; rw [outMiddle2_eq]; intro q
      exact tile_nearX (argX m c) (argY m c) (fam t) (tile t) _ _ _ hB hN h1 q
    · intro h; exact absurd h h7

/-- The invariant holds after every point. -/
theorem good : ∀ (n : ℕ) (hn : n < cfg0.N), Good m c ⟨n, hn⟩ := by
  intro n
  induction n with
  | zero => intro hn; exact good_first m c ⟨0, hn⟩ (Nat.zero_mod 8)
  | succ k ih =>
    intro hn
    by_cases h0 : (k + 1) % 8 = 0
    · exact good_first m c ⟨k + 1, hn⟩ h0
    · exact good_later m c ⟨k + 1, hn⟩ h0 (ih (Nat.lt_of_succ_lt hn))

end Cert.KernelIdeal.Body

end
-- ==== Proof.BodyIdeal.Arrays.lean ====
/-
  The two output arrays after the run, and the value of the run.
-/
import proofs.«162894_j44581760532793_2_alg».proof.Proof.BodyIdeal.Obligation
import proofs.«162894_j44581760532793_2_alg».proof.Proof.BodyIdeal.Blocks
import proofs.«162894_j44581760532793_2_alg».proof.Proof.TileMath
import proofs.«162894_j44581760532793_2_alg».proof.Proof.Spec
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The first output: every point of the second family's distance to the nearest point of the first -/

/-- What the first output array ends holding. -/
abbrev G2 (c : Dev nD) : S8x1x4096.Idx → EReal :=
  fun i => Chamfer.nearX (V m c main_arg0) (V m c main_arg1) (i 0) (i 2)

/-- What the second output array ends holding. -/
abbrev G3 (c : Dev nD) : S8x1x4096.Idx → EReal :=
  fun i => Chamfer.nearY (V m c main_arg0) (V m c main_arg1) (i 0) (i 2)

/-- An index of a `1 × 1 × n` block is its last coordinate. -/
theorem eq_ix3_unit {n : Nat} (j : (⟨3, ![1, 1, n]⟩ : Shape).Idx) : j = ix3 (0 : Fin 1) (0 : Fin 1) (j 2) := by
  funext a
  match a with
  | ⟨0, h⟩ =>
    have h1 : (j ⟨0, h⟩).val < 1 := (j ⟨0, h⟩).isLt
    exact Fin.ext (by show (j ⟨0, h⟩).val = 0; omega)
  | ⟨1, h⟩ =>
    have h1 : (j ⟨1, h⟩).val < 1 := (j ⟨1, h⟩).isLt
    exact Fin.ext (by show (j ⟨1, h⟩).val = 0; omega)
  | ⟨2, _⟩ => rfl

/-- What point `t` writes back of the first output is block `t` of `G2`. -/
theorem flushed2_eq (c : Dev nD)
    (H2 : ∀ (t : Fin cfg0.N) (q : Fin 512), (heldAt m c t.val t.isLt).o2 (ix3 (0 : Fin 1) (0 : Fin 1) q)
      = Chamfer.nearX (V m c main_arg0) (V m c main_arg1) (fam t) (Chamfer.pos (tile t) q))
    (t : Fin cfg0.N) :
    (dats m 0 c).flushed 2 t = ((cfg0.win 2).blk t).view.read (Elt Ideal) (G2 m c) := by
  show (cfg0.win 2).cut (grid0.coords t) ((dats m 0 c).after 2 t) = _
  rw [after2]
  obtain ⟨-, -, ⟨e0, e1, e2⟩, -⟩ := idx_facts t
  refine funext fun (j : S1x1x512.Idx) => ?_
  rw [View.read_apply]
  show (heldAt m c t.val t.isLt).o2 j = G2 m c (((cfg0.win 2).blk t).view.emb j)
  rw [eq_ix3_unit (n := 512) j]
  refine (H2 t (j 2)).trans ?_
  show Chamfer.nearX _ _ (fam t) (Chamfer.pos (tile t) (j 2)) = Chamfer.nearX _ _ _ _
  congr 1
  · exact Fin.ext (by show t.val / 8 = win0_2.index t (0 : Fin 3) * 1 + 1 * 0; omega)
  · exact Fin.ext (by show 512 * (t.val % 8) + (j 2).val = win0_2.index t (2 : Fin 3) * 512 + 1 * (j 2).val; omega)

/-- An index of the first output array is in point `t`'s block iff each coordinate is in the block's range on its axis. -/
theorem mem_blk2 (t : Fin cfg0.N) (i : S8x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v0_0).slice (win0_2.rect t)).set ↔ _
  rw [View.set_slice_whole, Rect.mem_set_unit]
  exact Iff.rfl

/-- The point whose block of the first output holds index `i`: family `i 0`, tile `i 2 / 512`. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : cfg0.N = 64 := N_0
  refine ⟨⟨8 * (i 0).val + (i 2).val / 512, by omega⟩, flush0_2 _, ?_⟩
  obtain ⟨-, -, ⟨e0, e1, e2⟩, -⟩ := idx_facts ⟨8 * (i 0).val + (i 2).val / 512, by omega⟩
  rw [mem_blk2]
  intro a
  match a with
  | ⟨0, _⟩ => show win0_2.index _ (0 : Fin 3) * 1 ≤ (i 0).val ∧ (i 0).val < win0_2.index _ (0 : Fin 3) * 1 + 1; dsimp only at e0; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 512 ≤ (i 2).val ∧ (i 2).val < win0_2.index _ (2 : Fin 3) * 512 + 512; dsimp only at e2; omega

/-- The first output array after the run. -/
theorem final2 (c : Dev nD)
    (H2 : ∀ (t : Fin cfg0.N) (q : Fin 512), (heldAt m c t.val t.isLt).o2 (ix3 (0 : Fin 1) (0 : Fin 1) q)
      = Chamfer.nearX (V m c main_arg0) (V m c main_arg1) (fam t) (Chamfer.pos (tile t) q)) :
    (dats m 0 c).arrAt 2 cfg0.N = G2 m c :=
  (dats m 0 c).arrAt_eq_of_cover 2 (G2 m c) (fun t _ => flushed2_eq m c H2 t) cover2

/-! ## The second output: every point of the first family's distance to the nearest point of the second -/

/-- What a family's last point writes back of the second output is its block of `G3`. -/
theorem flushed3_eq (c : Dev nD)
    (H3 : ∀ (t : Fin cfg0.N), t.val % 8 = 7 → ∀ n : Fin 4096, (heldAt m c t.val t.isLt).o3 (ix3 (0 : Fin 1) (0 : Fin 1) n)
      = Chamfer.nearY (V m c main_arg0) (V m c main_arg1) (fam t) n)
    (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after3]
  obtain ⟨-, -, -, ⟨e0, e1, e2⟩⟩ := idx_facts t
  refine funext fun (j : S1x1x4096.Idx) => ?_
  rw [View.read_apply]
  show (heldAt m c t.val t.isLt).o3 j = G3 m c (((cfg0.win 3).blk t).view.emb j)
  rw [eq_ix3_unit (n := 4096) j]
  refine (H3 t h7 (j 2)).trans ?_
  show Chamfer.nearY _ _ (fam t) (j 2) = Chamfer.nearY _ _ _ _
  congr 1
  · exact Fin.ext (by show t.val / 8 = win0_3.index t (0 : Fin 3) * 1 + 1 * 0; omega)
  · exact Fin.ext (by show (j 2).val = win0_3.index t (2 : Fin 3) * 4096 + 1 * (j 2).val; omega)

/-- An index of the second output array is in point `t`'s block iff each coordinate is in the block's range on its axis. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- The point that writes back the block of the second output holding index `i`: the last tile of family `i 0`. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : cfg0.N = 64 := N_0
  refine ⟨⟨8 * (i 0).val + 7, by omega⟩, (flush0_3 _).mpr (by show (8 * (i 0).val + 7) % 8 = 7; omega), ?_⟩
  obtain ⟨-, -, -, ⟨e0, e1, e2⟩⟩ := idx_facts ⟨8 * (i 0).val + 7, by omega⟩
  rw [mem_blk3]
  intro a
  match a with
  | ⟨0, _⟩ => show win0_3.index _ (0 : Fin 3) * 1 ≤ (i 0).val ∧ (i 0).val < win0_3.index _ (0 : Fin 3) * 1 + 1; dsimp only at e0; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 4096 ≤ (i 2).val ∧ (i 2).val < win0_3.index _ (2 : Fin 3) * 4096 + 4096; omega

/-- The second output array after the run. -/
theorem final3 (c : Dev nD)
    (H3 : ∀ (t : Fin cfg0.N), t.val % 8 = 7 → ∀ n : Fin 4096, (heldAt m c t.val t.isLt).o3 (ix3 (0 : Fin 1) (0 : Fin 1) n)
      = Chamfer.nearY (V m c main_arg0) (V m c main_arg1) (fam t) n) :
    (dats m 0 c).arrAt 3 cfg0.N = G3 m c :=
  (dats m 0 c).arrAt_eq_of_cover 3 (G3 m c) (flushed3_eq m c H3) cover3

/-! ## The host lines after the region, and the run -/

/-- The host's sum of an `8 × 1 × 4096` array over all its entries, from the zero word. -/
theorem reduceAll_apply (y : (⟨S8x1x4096, .f32⟩ : BufTy).Contents (Elt Ideal)) (i : S_.Idx) :
    Host.reduceAdd (F := Ideal) y (constant (F := Ideal) S_ .f32 0x00000000#32) reducesTo_S8x1x4096_S_d0_1_2 h_S_ i
      = ∑ b : Fin 8, ∑ n : Fin 4096, y (ix3 b (0 : Fin 1) n) := by
  simp only [Host.reduceAdd, Ideal.hostReduceAdd_def]
  rw [Ideal.hostReduceAdd_total reducesTo_S8x1x4096_S_d0_1_2 (fun b => b.elim0)]
  show Ideal.ofBits .f32 0x00000000#32 + _ = _
  rw [Ideal.ofBits_zero_f32, zero_add, Chamfer.sum_idx_8_1_4096]

/-- The result buffer after the host lines that follow the region: the two output arrays summed, the sums added. -/
theorem tail_eq (c : Dev nD)
    (H2 : ∀ (t : Fin cfg0.N) (q : Fin 512), (heldAt m c t.val t.isLt).o2 (ix3 (0 : Fin 1) (0 : Fin 1) q)
      = Chamfer.nearX (V m c main_arg0) (V m c main_arg1) (fam t) (Chamfer.pos (tile t) q))
    (H3 : ∀ (t : Fin cfg0.N), t.val % 8 = 7 → ∀ n : Fin 4096, (heldAt m c t.val t.isLt).o3 (ix3 (0 : Fin 1) (0 : Fin 1) n)
      = Chamfer.nearY (V m c main_arg0) (V m c main_arg1) (fam t) n) :
    Pipeline.afterTail₀ cfgs (dats m) 0 (V0 m) [hostOps1] c main_v3
      = fun _ => Chamfer.loss (V m c main_arg0) (V m c main_arg1) := by
  unfold Pipeline.afterTail₀
  show StableHlo.after hostOps1 _ (Proc.devRef .tc main_v3) = _
  after_results
  have a2 : Pipeline.withArrays (cfgs 0).spec c (V0 m c) (fun w => (dats m 0 c).arrAt w (cfgs 0).N) (Proc.devRef .tc main_v0_0)
      = G2 m c := (Pipeline.withArrays_arr spec0 launch0.win.arr_inj c _ _ 2).trans (final2 m c H2)
  have a3 : Pipeline.withArrays (cfgs 0).spec c (V0 m c) (fun w => (dats m 0 c).arrAt w (cfgs 0).N) (Proc.devRef .tc main_v0_1)
      = G3 m c := (Pipeline.withArrays_arr spec0 launch0.win.arr_inj c _ _ 3).trans (final3 m c H3)
  rw [a2, a3]
  funext i
  show FloatOps.addf (Host.reduceAdd (F := Ideal) (G2 m c) _ _ _ i) (Host.reduceAdd (F := Ideal) (G3 m c) _ _ _ i) = _
  rw [reduceAll_apply, reduceAll_apply]
  rfl

/-- The result buffer bypasses the region: it is unscoped and no window's array. -/
theorem main_v3_rest : main_v3 ∈ Pipeline.restRefs sig (cfgs 0).spec :=
  Pipeline.mem_restRefs_of main_v3 (by decide) (by decide)

/-- The run's value: the result is the sum of all the charges of the two argument arrays, which are left unchanged. -/
theorem value_run
    (H2 : ∀ (c : Dev nD) (t : Fin cfg0.N) (q : Fin 512), (heldAt m c t.val t.isLt).o2 (ix3 (0 : Fin 1) (0 : Fin 1) q)
      = Chamfer.nearX (V m c main_arg0) (V m c main_arg1) (fam t) (Chamfer.pos (tile t) q))
    (H3 : ∀ (c : Dev nD) (t : Fin cfg0.N), t.val % 8 = 7 → ∀ n : Fin 4096, (heldAt m c t.val t.isLt).o3 (ix3 (0 : Fin 1) (0 : Fin 1) n)
      = Chamfer.nearY (V m c main_arg0) (V m c main_arg1) (fam t) n) :
    θ_run defs (onTc (τ := τ) (main (F := Ideal))) ⟨m, fun _ => 0, ρ⟩ (fun r => ∀ c : Dev nD,
      r.2.mem ((c.tc : Thread nD τ).loc main_v3) = (fun _ => Chamfer.loss (V m c main_arg0) (V m c main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v3 main_v3_rest).trans (tail_eq m c (H2 c) (H3 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.RefValue.lean ====
/-
  The reference's result, read one operation at a time, is the sum of all the charges.
-/
import proofs.«162894_j44581760532793_2_alg».proof.Proof.Gen.ReferenceIdeal.Read
import proofs.«162894_j44581760532793_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The array of expanded squared distances, at pair `b`, point `n` of the first family and point `m` of the second. -/
theorem dist_apply (x0 x1 : (⟨S8x4096x256, .f32⟩ : BufTy).Contents (Elt Ideal)) (b : Fin 8) (n m : Fin 4096) :
    val_main_v12 (F := Ideal) x0 x1 (ix3 b n m) = Chamfer.dist x0 x1 b n m := by
  have e1 : ∀ k : Fin 256, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 256, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 256, lidx_main_v4 (ix3 b n m) k = ix3 b n k := fun k =>
    funext fun a => Fin.ext (by match a with | ⟨0, _⟩ => rfl | ⟨1, _⟩ => rfl | ⟨2, _⟩ => rfl)
  have e4 : ∀ k : Fin 256, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_apply, val_main_cst_0_apply, val_main_cst_1_apply]
  simp only [e1, e2, e3, e4, val_main_v0_apply, val_main_v2_apply, Ideal.addf_def, Ideal.subf_def, Ideal.mulf_def,
    Ideal.ofBits_def, Ideal.ofBits_zero_f32, zero_add]
  rfl

/-- The reduction of the distances over the first family's points (axis 1): the distance from point `m` of the second
    family to the nearest point of the first. -/
theorem nearX_apply (x0 x1 : (⟨S8x4096x256, .f32⟩ : BufTy).Contents (Elt Ideal)) (b : Fin 8) (m : Fin 4096) :
    val_main_v13 (F := Ideal) x0 x1 (ix2 b m) = Chamfer.nearX x0 x1 b m := by
  have h : S8x4096x4096.Reduces [1] S8x4096 := by decide
  unfold val_main_v13
  rw [Host.reduce_eq_fold_single (FloatOps.minimumf (F := Ideal) (φ := .f32)) _ _ _ h]
  show (Finset.univ : Finset (Fin 4096)).fold min Chamfer.top (val_main_v12 (F := Ideal) x0 x1 ∘ h.lift (ix2 b m)) = _
  unfold Chamfer.nearX
  refine Finset.fold_congr fun k _ => ?_
  show val_main_v12 (F := Ideal) x0 x1 (h.lift (ix2 b m) k) = _
  rw [show h.lift (ix2 b m) k = ix3 b k m from
    funext fun a => Fin.ext (by match a with | ⟨0, _⟩ => rfl | ⟨1, _⟩ => rfl | ⟨2, _⟩ => rfl)]
  exact dist_apply x0 x1 b k m

/-- The reduction of the distances over the second family's points (axis 2): the distance from point `n` of the first
    family to the nearest point of the second. -/
theorem nearY_apply (x0 x1 : (⟨S8x4096x256, .f32⟩ : BufTy).Contents (Elt Ideal)) (b : Fin 8) (n : Fin 4096) :
    val_main_v15 (F := Ideal) x0 x1 (ix2 b n) = Chamfer.nearY x0 x1 b n := by
  have h : S8x4096x4096.Reduces [2] S8x4096 := by decide
  unfold val_main_v15
  rw [Host.reduce_eq_fold_single (FloatOps.minimumf (F := Ideal) (φ := .f32)) _ _ _ h]
  show (Finset.univ : Finset (Fin 4096)).fold min Chamfer.top (val_main_v12 (F := Ideal) x0 x1 ∘ h.lift (ix2 b n)) = _
  unfold Chamfer.nearY
  refine Finset.fold_congr fun k _ => ?_
  show val_main_v12 (F := Ideal) x0 x1 (h.lift (ix2 b n) k) = _
  rw [show h.lift (ix2 b n) k = ix3 b n k from
    funext fun a => Fin.ext (by match a with | ⟨0, _⟩ => rfl | ⟨1, _⟩ => rfl | ⟨2, _⟩ => rfl)]
  exact dist_apply x0 x1 b n k

/-- The reference's result is the sum of all the charges. -/
theorem ref_apply (x0 x1 : (⟨S8x4096x256, .f32⟩ : BufTy).Contents (Elt Ideal)) (i : S_.Idx) :
    val_main_v17 (F := Ideal) x0 x1 i = Chamfer.loss x0 x1 := by
  rw [val_main_v17_apply, val_main_v14_apply, val_main_v16_apply, val_main_cst_3_apply, val_main_cst_5_apply,
    sum_idx2, sum_idx2]
  simp only [nearX_apply, nearY_apply, Ideal.addf_def, Ideal.ofBits_def, Ideal.ofBits_zero_f32, zero_add]
  rfl

theorem ref_eq (x0 x1 : (⟨S8x4096x256, .f32⟩ : BufTy).Contents (Elt Ideal)) :
    val_main_v17 (F := Ideal) x0 x1 = fun _ => Chamfer.loss x0 x1 :=
  funext fun i => ref_apply x0 x1 i

end Cert.ReferenceIdeal.RefValue

end
-- ==== Proof.lean ====
/-
  The five claims about the pairwise-distance kernel and its reference.

  The kernel sweeps, for each of eight pairs of point families, the second family in eight tiles of 512 points
  against the whole first family (4096 points in dimension 256).  Per tile it forms the table of squared
  distances |x|² + |y|² − 2⟨x, y⟩, writes out the tile's column minima (each point of the tile against the
  nearest point of the first family) and folds the row minima into a running minimum that it writes out after the
  last tile; the two arrays of minima are then summed and added.  The reference forms the whole table at once,
  takes the minima along either axis, sums and adds.  At the ideal instance a minimum over a family is the fold of
  the minima over its tiles, and a sum over an array is the iterated sum over its coordinates, so both programs
  end at the same extended real.

  Frames: the three programs run to the end, fault nowhere and leave their arguments unchanged — for the two
  kernels by the body's run at each of the three kinds of grid point (first, middle, last tile of a family) under
  an invariant that carries the three scratch buffers from point to point; for the reference by its run.
  The idealized kernel is the kernel's own text read at the ideal instance: nothing was rewritten.
-/
import proofs.«162894_j44581760532793_2_alg».proof.Defs
import proofs.«162894_j44581760532793_2_alg».proof.Proof.Gen.Kernel
import proofs.«162894_j44581760532793_2_alg».proof.Proof.Gen.KernelIdeal
import proofs.«162894_j44581760532793_2_alg».proof.Proof.Gen.ReferenceIdeal
import proofs.«162894_j44581760532793_2_alg».proof.Proof.Gen.Pre_finite_inputs
import proofs.«162894_j44581760532793_2_alg».proof.Proof.Gen.ReferenceIdeal.Run
import proofs.«162894_j44581760532793_2_alg».proof.Proof.Gen.ReferenceIdeal.Read
import proofs.«162894_j44581760532793_2_alg».proof.Proof.BodyBits.Obligation
import proofs.«162894_j44581760532793_2_alg».proof.Proof.BodyIdeal.Obligation
import proofs.«162894_j44581760532793_2_alg».proof.Proof.BodyIdeal.Invariant
import proofs.«162894_j44581760532793_2_alg».proof.Proof.BodyIdeal.Arrays
import proofs.«162894_j44581760532793_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the sum of all the charges of their (equal) arguments. -/
theorem algebraic : Cert.algebraic_KernelIdeal_ReferenceIdeal := by
  intro m ρ m' ρ' _ hagree
  refine ⟨fun c => fun _ => Chamfer.loss (Cert.KernelIdeal.Gen.V m c Cert.KernelIdeal.main_arg0) (Cert.KernelIdeal.Gen.V m c Cert.KernelIdeal.main_arg1),
    Cert.KernelIdeal.Body.value_run m ρ
      (fun c t q => (Cert.KernelIdeal.Body.good m c t.val t.isLt).o2 q)
      (fun c t h7 n => (Cert.KernelIdeal.Body.good m c t.val t.isLt).o3 h7 n), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefValue.ref_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
